-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S256x128 .f32) (main_arg13 : FVec F S128 .f32) (main_arg14 : FVec F S128x1 .f32) (main_arg15 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg14
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg15 main_v63 main_v67

def fn_part2 {F : FTy → Type} [FloatOps F] (main_arg8 : FVec F S256x128 .f32) (main_arg9 : FVec F S128 .f32) (main_arg10 : FVec F S128x1 .f32) (main_arg11 : FVec F S1 .f32) (main_arg12 : FVec F S256x128 .f32) (main_arg13 : FVec F S128 .f32) (main_arg14 : FVec F S128x1 .f32) (main_arg15 : FVec F S1 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_arg14 main_arg15 main_v48 main_v49 main_v50

def fn_part1 {F : FTy → Type} [FloatOps F] (main_arg5 : FVec F S128x128 .f32) (main_arg6 : FVec F S128 .f32) (main_arg7 : FVec F S128x128 .f32) (main_arg8 : FVec F S256x128 .f32) (main_arg9 : FVec F S128 .f32) (main_arg10 : FVec F S128x1 .f32) (main_arg11 : FVec F S1 .f32) (main_arg12 : FVec F S256x128 .f32) (main_arg13 : FVec F S128 .f32) (main_arg14 : FVec F S128x1 .f32) (main_arg15 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S256x128 .f32) (main_arg9 : FVec F S128 .f32) (main_arg10 : FVec F S128x1 .f32) (main_arg11 : FVec F S1 .f32) (main_arg12 : FVec F S256x128 .f32) (main_arg13 : FVec F S128 .f32) (main_arg14 : FVec F S128x1 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S800000x256 : Shape := ⟨2, ![800000, 256]⟩
abbrev S128x2 : Shape := ⟨2, ![128, 2]⟩
abbrev S1x1 : Shape := ⟨2, ![1, 1]⟩
abbrev S1x2 : Shape := ⟨2, ![1, 2]⟩
abbrev S800000x2 : Shape := ⟨2, ![800000, 2]⟩
abbrev S6400x256 : Shape := ⟨2, ![6400, 256]⟩
abbrev S6400x2 : Shape := ⟨2, ![6400, 2]⟩
abbrev S6400x128 : Shape := ⟨2, ![6400, 128]⟩

abbrev nBuf : Space → Nat
  | .hbm => 95
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S256x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S50000x128, .bf16⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .bf16⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S128x128, .bf16⟩
  | .hbm, ⟨36, _⟩ => ⟨S128x128, .bf16⟩
  | .hbm, ⟨37, _⟩ => ⟨S1x128, .f32⟩
  | .hbm, ⟨38, _⟩ => ⟨S50000x128, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .bf16⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S128x128, .bf16⟩
  | .hbm, ⟨54, _⟩ => ⟨S128x128, .bf16⟩
  | .hbm, ⟨55, _⟩ => ⟨S1x128, .f32⟩
  | .hbm, ⟨56, _⟩ => ⟨S50000x128, .bf16⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .bf16⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .bf16⟩
  | .hbm, ⟨75, _⟩ => ⟨S800000x256, .bf16⟩
  | .hbm, ⟨76, _⟩ => ⟨S256x128, .bf16⟩
  | .hbm, ⟨77, _⟩ => ⟨S256x128, .bf16⟩
  | .hbm, ⟨78, _⟩ => ⟨S1x128, .f32⟩
  | .hbm, ⟨79, _⟩ => ⟨S1x128, .f32⟩
  | .hbm, ⟨80, _⟩ => ⟨S_, .f32⟩
  | .hbm, ⟨81, _⟩ => ⟨S128x1, .f32⟩
  | .hbm, ⟨82, _⟩ => ⟨S128x2, .f32⟩
  | .hbm, ⟨83, _⟩ => ⟨S128x2, .bf16⟩
  | .hbm, ⟨84, _⟩ => ⟨S128x2, .f32⟩
  | .hbm, ⟨85, _⟩ => ⟨S128x2, .bf16⟩
  | .hbm, ⟨86, _⟩ => ⟨S_, .f32⟩
  | .hbm, ⟨87, _⟩ => ⟨S1x1, .f32⟩
  | .hbm, ⟨88, _⟩ => ⟨S1x1, .f32⟩
  | .hbm, ⟨89, _⟩ => ⟨S1x2, .f32⟩
  | .hbm, ⟨90, _⟩ => ⟨S1x1, .f32⟩
  | .hbm, ⟨91, _⟩ => ⟨S1x2, .f32⟩
  | .hbm, ⟨92, _⟩ => ⟨S800000x2, .f32⟩
  | .hbm, ⟨93, _⟩ => ⟨S800000x1, .f32⟩
  | .hbm, ⟨94, _⟩ => ⟨S800000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S5000x128, .bf16⟩
  | .local _ .vmem, ⟨8, _⟩ => ⟨S5000x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .bf16⟩
  | .local _ .vmem, ⟨12, _⟩ => ⟨S5000x128, .bf16⟩
  | .local _ .vmem, ⟨13, _⟩ => ⟨S128x128, .bf16⟩
  | .local _ .vmem, ⟨14, _⟩ => ⟨S1x128, .f32⟩
  | .local _ .vmem, ⟨15, _⟩ => ⟨S128x128, .bf16⟩
  | .local _ .vmem, ⟨16, _⟩ => ⟨S5000x128, .bf16⟩
  | .local _ .vmem, ⟨17, _⟩ => ⟨S5000x128, .bf16⟩
  | .local _ .vmem, ⟨18, _⟩ => ⟨S6400x256, .bf16⟩
  | .local _ .vmem, ⟨19, _⟩ => ⟨S6400x256, .bf16⟩
  | .local _ .vmem, ⟨20, _⟩ => ⟨S256x128, .bf16⟩
  | .local _ .vmem, ⟨21, _⟩ => ⟨S1x128, .f32⟩
  | .local _ .vmem, ⟨22, _⟩ => ⟨S128x2, .bf16⟩
  | .local _ .vmem, ⟨23, _⟩ => ⟨S1x2, .f32⟩
  | .local _ .vmem, ⟨24, _⟩ => ⟨S256x128, .bf16⟩
  | .local _ .vmem, ⟨25, _⟩ => ⟨S1x128, .f32⟩
  | .local _ .vmem, ⟨26, _⟩ => ⟨S128x2, .bf16⟩
  | .local _ .vmem, ⟨27, _⟩ => ⟨S1x2, .f32⟩
  | .local _ .vmem, ⟨28, _⟩ => ⟨S6400x2, .f32⟩
  | .local _ .vmem, ⟨29, _⟩ => ⟨S6400x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_1 : Ref sig .tc := ⟨.hbm, 39, rfl⟩
abbrev main_v20 : Ref sig .tc := ⟨.hbm, 40, rfl⟩
abbrev main_v21 : Ref sig .tc := ⟨.hbm, 41, rfl⟩
abbrev main_c_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_4 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_6 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_9 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x2 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x2 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x2 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S6400x2 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  concatenates_S800000x128_S800000x128_S800000x256_d1 : Shape.Concatenates [S800000x128, S800000x128] S800000x256 1
  bcast_S_S128x1 : S_.BroadcastsInDim S128x1 (![] : Fin 0 → Fin S128x1.rank)
  concatenates_S128x1_S128x1_S128x2_d1 : Shape.Concatenates [S128x1, S128x1] S128x2 1
  bcast_S_S1x1 : S_.BroadcastsInDim S1x1 (![] : Fin 0 → Fin S1x1.rank)
  shapeCasts_S1_S1x1 : S1.ShapeCasts S1x1
  concatenates_S1x1_S1x1_S1x2_d1 : Shape.Concatenates [S1x1, S1x1] S1x2 1
  inb_S6400x256_S6400x256_0_0 : ∀ a, (![0, 0] : Fin 2 → Nat) a + S6400x256.size a ≤ S6400x256.size a
  h_S6400x256 : 0 < S6400x256.numel
  shapeCasts_S6400x256_S6400x256 : S6400x256.ShapeCasts S6400x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S6400x128 : S1x128.Broadcasts S6400x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S6400x2 : S1x2.Broadcasts S6400x2
  iota_S6400x2_d1_w32 : S6400x2.Iotas .tc 32 [1]
  inb_S6400x2_S6400x2_0_0 : ∀ a, (![0, 0] : Fin 2 → Nat) a + S6400x2.size a ≤ S6400x2.size a
  h_S6400x2 : 0 < S6400x2.numel
  slices_S800000x2_S800000x1_0_0 : S800000x2.Slices ![0, 0] S800000x1
  slices_S800000x2_S800000x1_0_1 : S800000x2.Slices ![0, 1] S800000x1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S6400x256_S256x128_S6400x128_1_0_0_1_n_n_wf : DotDims.WF S6400x256 S256x128 S6400x128 [1] [0] [0] [1] [] []
  dot_S6400x128_S128x2_S6400x2_1_0_0_1_n_n_wf : DotDims.WF S6400x128 S128x2 S6400x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .bf16 = 32 ∨ (Rect.block (s := S50000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .bf16 = 32 ∨ (Rect.block (s := S50000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x256.size a ≤ S800000x256.size a
  hwx2_0 : ∀ i : grid2.Coords, EltTy.bits .bf16 = 32 ∨ (Rect.block (s := S800000x256) S6400x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .bf16 = 32 ∨ (Rect.block (s := S256x128) S256x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x2.size a ≤ S128x2.size a
  hwx2_3 : ∀ i : grid2.Coords, EltTy.bits .bf16 = 32 ∨ (Rect.block (s := S128x2) S128x2.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .bf16 = 32 ∨ (Rect.block (s := S256x128) S256x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x2.size a ≤ S128x2.size a
  hwx2_7 : ∀ i : grid2.Coords, EltTy.bits .bf16 = 32 ∨ (Rect.block (s := S128x2) S128x2.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x2.size a ≤ S1x2.size a
  hwx2_8 : ∀ i : grid2.Coords, EltTy.bits .f32 = 32 ∨ (Rect.block (s := S1x2) S1x2.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S6400x2.size a ≤ S800000x2.size a
  hwx2_9 : ∀ i : grid2.Coords, EltTy.bits .f32 = 32 ∨ (Rect.block (s := S800000x2) S6400x2.size (cc2_transform_9 i) (hinb2_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S6400x256_S256x128_S6400x128_1_0_0_1_n_n : DotDims S6400x256 S256x128 S6400x128 where
  lhsContracting := [1]
  rhsContracting := [0]
  lhsNonContracting := [0]
  rhsNonContracting := [1]
  lhsBatch := []
  rhsBatch := []
  wf := dot_S6400x256_S256x128_S6400x128_1_0_0_1_n_n_wf
def dot_S6400x128_S128x2_S6400x2_1_0_0_1_n_n : DotDims S6400x128 S128x2 S6400x2 where
  lhsContracting := [1]
  rhsContracting := [0]
  lhsNonContracting := [0]
  rhsNonContracting := [1]
  lhsBatch := []
  rhsBatch := []
  wf := dot_S6400x128_S128x2_S6400x2_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S6400x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S128x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v58) S128x2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v63) S1x2.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v64) S6400x2.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S800000x256 : Shape := ⟨2, ![800000, 256]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S256x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S800000x256, .f32⟩
  | .hbm, ⟨83, _⟩ => ⟨S800000x128, .f32⟩
  | .hbm, ⟨84, _⟩ => ⟨S1x128, .f32⟩
  | .hbm, ⟨85, _⟩ => ⟨S800000x128, .f32⟩
  | .hbm, ⟨86, _⟩ => ⟨S800000x128, .f32⟩
  | .hbm, ⟨87, _⟩ => ⟨S_, .f32⟩
  | .hbm, ⟨88, _⟩ => ⟨S800000x128, .f32⟩
  | .hbm, ⟨89, _⟩ => ⟨S800000x128, .f32⟩
  | .hbm, ⟨90, _⟩ => ⟨S800000x1, .f32⟩
  | .hbm, ⟨91, _⟩ => ⟨S1x1, .f32⟩
  | .hbm, ⟨92, _⟩ => ⟨S800000x1, .f32⟩
  | .hbm, ⟨93, _⟩ => ⟨S800000x1, .f32⟩
  | .hbm, ⟨94, _⟩ => ⟨S800000x128, .f32⟩
  | .hbm, ⟨95, _⟩ => ⟨S1x128, .f32⟩
  | .hbm, ⟨96, _⟩ => ⟨S800000x128, .f32⟩
  | .hbm, ⟨97, _⟩ => ⟨S800000x128, .f32⟩
  | .hbm, ⟨98, _⟩ => ⟨S_, .f32⟩
  | .hbm, ⟨99, _⟩ => ⟨S800000x128, .f32⟩
  | .hbm, ⟨100, _⟩ => ⟨S800000x128, .f32⟩
  | .hbm, ⟨101, _⟩ => ⟨S800000x1, .f32⟩
  | .hbm, ⟨102, _⟩ => ⟨S1x1, .f32⟩
  | .hbm, ⟨103, _⟩ => ⟨S800000x1, .f32⟩
  | .hbm, ⟨104, _⟩ => ⟨S800000x1, .f32⟩
  | .hbm, ⟨105, _⟩ => ⟨S_, .f32⟩
  | .hbm, ⟨106, _⟩ => ⟨S800000x1, .f32⟩
  | .hbm, ⟨107, _⟩ => ⟨S800000x1, .f32⟩
  | .hbm, ⟨108, _⟩ => ⟨S800000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call0_cst : Ref sig .tc := ⟨.hbm, 39, rfl⟩
abbrev main_call0_v0 : Ref sig .tc := ⟨.hbm, 40, rfl⟩
abbrev main_v20 : Ref sig .tc := ⟨.hbm, 41, rfl⟩
abbrev main_c_1 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call1_cst : Ref sig .tc := ⟨.hbm, 61, rfl⟩
abbrev main_call1_v0 : Ref sig .tc := ⟨.hbm, 62, rfl⟩
abbrev main_v37 : Ref sig .tc := ⟨.hbm, 63, rfl⟩
abbrev main_c_4 : Ref sig .tc := ⟨.hbm, 64, rfl⟩
abbrev main_v38 : Ref sig .tc := ⟨.hbm, 65, rfl⟩
abbrev main_v39 : Ref sig .tc := ⟨.hbm, 66, rfl⟩
abbrev main_c_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_6 : Ref sig .tc := ⟨.hbm, 73, rfl⟩
abbrev main_v45 : Ref sig .tc := ⟨.hbm, 74, rfl⟩
abbrev main_v46 : Ref sig .tc := ⟨.hbm, 75, rfl⟩
abbrev main_c_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call2_cst : Ref sig .tc := ⟨.hbm, 87, rfl⟩
abbrev main_call2_v0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call3_cst : Ref sig .tc := ⟨.hbm, 98, rfl⟩
abbrev main_call3_v0 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_8 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S800000x128_S800000x128_S800000x256_d1 : Shape.Concatenates [S800000x128, S800000x128] S800000x256 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S800000x256_S256x128_S800000x128_1_0_0_1_n_n_wf : DotDims.WF S800000x256 S256x128 S800000x128 [1] [0] [0] [1] [] []
  dot_S800000x128_S128x1_S800000x1_1_0_0_1_n_n_wf : DotDims.WF S800000x128 S128x1 S800000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.KRun.lean ====
/-
  The idealized kernel's run with its two results named. @main is seven segments — four stretches of host
  operations around three pipelined regions — and the buffers' contents at each boundary are a fold from the launch
  memory. After the last stretch the two result buffers hold that fold's last stage read at them; every argument
  array is as launched. What those two stages are, as functions of the arguments, is read off the fold elsewhere.
-/
import proofs.«159588_j78761110274681_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, with each result buffer at the
    last boundary's contents and the arguments unchanged. -/
theorem run_named : θ_run defs (onTc (τ := τ) (main (F := F))) ⟨m, fun _ => 0, ρ⟩ (fun r => ∀ c : Dev nD,
      r.2.mem ((c.tc : Thread nD τ).loc main_v65) = W7 m ρ c (Proc.devRef .tc main_v65)
      ∧ r.2.mem ((c.tc : Thread nD τ).loc main_v66) = W7 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v65 (by decide)), h c _ (mem_uc main_v66 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c)⟩)

end Cert.KernelIdeal.Named

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.Pay.lean ====
/-
  What one tile of each kernel stores, entry by entry, at the ideal values.
  A graph-convolution tile stores relu(agg·W_rel + x·W_root + b): two plain matrix products into zero accumulators,
  the bias row repeated down the rows, a maximum with zero; the changes of storage format are the identity.
  A heads tile stores, in column q of its two columns, the sum of the two heads' wide second layers,
  (relu(c·Wm1 + bm1)·Wm2w + bm2w) + (relu(c·Wv1 + bv1)·Wv2w + bv2w), and in column 1 the exponential of half of it.
-/
import proofs.«159588_j78761110274681_2_alg».proof.Proof.Gen.KernelIdeal.Skeleton
import proofs.«159588_j78761110274681_2_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The zero the kernels' relu compares with. -/
abbrev z32 : EReal := Ideal.ofBits .f32 0x00000000#32

/-- One hidden entry of a dense layer with relu: max(Σ_d X(p,d)·W(d,c) + b(c), 0). -/
def hid {a k n : ℕ} (X : (⟨2, ![a, k]⟩ : Shape).Idx → EReal) (W : (⟨2, ![k, n]⟩ : Shape).Idx → EReal)
    (B : (⟨2, ![1, n]⟩ : Shape).Idx → EReal) (p : Fin a) (c : Fin n) : EReal :=
  max ((∑ d : Fin k, X (ix2 p d) * W (ix2 d c)) + B (ix2 (0 : Fin 1) c)) z32

/-- One entry of a graph-convolution layer: max((Σ_c A(p,c)·Wr(c,q) + Σ_c X(p,c)·Wo(c,q)) + b(q), 0). -/
def conv {a k n : ℕ} (A X : (⟨2, ![a, k]⟩ : Shape).Idx → EReal) (Wr Wo : (⟨2, ![k, n]⟩ : Shape).Idx → EReal)
    (B : (⟨2, ![1, n]⟩ : Shape).Idx → EReal) (p : Fin a) (q : Fin n) : EReal :=
  max (((∑ c : Fin k, A (ix2 p c) * Wr (ix2 c q)) + ∑ c : Fin k, X (ix2 p c) * Wo (ix2 c q)) + B (ix2 (0 : Fin 1) q)) z32

/-- The sum of the two heads' wide second layers at (p, q). -/
def wide {a k n : ℕ} (C : (⟨2, ![a, k]⟩ : Shape).Idx → EReal)
    (Wm1 : (⟨2, ![k, n]⟩ : Shape).Idx → EReal) (Bm1 : (⟨2, ![1, n]⟩ : Shape).Idx → EReal)
    (Wm2 : (⟨2, ![n, 2]⟩ : Shape).Idx → EReal) (Bm2 : (⟨2, ![1, 2]⟩ : Shape).Idx → EReal)
    (Wv1 : (⟨2, ![k, n]⟩ : Shape).Idx → EReal) (Bv1 : (⟨2, ![1, n]⟩ : Shape).Idx → EReal)
    (Wv2 : (⟨2, ![n, 2]⟩ : Shape).Idx → EReal) (Bv2 : (⟨2, ![1, 2]⟩ : Shape).Idx → EReal) (p : Fin a) (q : Fin 2) : EReal :=
  ((∑ c : Fin n, hid C Wm1 Bm1 p c * Wm2 (ix2 c q)) + Bm2 (ix2 (0 : Fin 1) q))
    + ((∑ c : Fin n, hid C Wv1 Bv1 p c * Wv2 (ix2 c q)) + Bv2 (ix2 (0 : Fin 1) q))

/-- A layer's entry depends only on row p of agg and x, column q of the weights and entry q of the bias row. -/
theorem conv_congr {a a' k n : ℕ} (A X : (⟨2, ![a, k]⟩ : Shape).Idx → EReal) (Wr Wo : (⟨2, ![k, n]⟩ : Shape).Idx → EReal)
    (B : (⟨2, ![1, n]⟩ : Shape).Idx → EReal) (A' X' : (⟨2, ![a', k]⟩ : Shape).Idx → EReal) (Wr' Wo' : (⟨2, ![k, n]⟩ : Shape).Idx → EReal)
    (B' : (⟨2, ![1, n]⟩ : Shape).Idx → EReal) (p : Fin a) (p' : Fin a') (q q' : Fin n)
    (hA : ∀ d, A (ix2 p d) = A' (ix2 p' d)) (hX : ∀ d, X (ix2 p d) = X' (ix2 p' d))
    (hWr : ∀ d, Wr (ix2 d q) = Wr' (ix2 d q')) (hWo : ∀ d, Wo (ix2 d q) = Wo' (ix2 d q'))
    (hB : B (ix2 (0 : Fin 1) q) = B' (ix2 (0 : Fin 1) q')) :
    conv A X Wr Wo B p q = conv A' X' Wr' Wo' B' p' q' := by
  unfold conv
  simp only [hA, hX, hWr, hWo, hB]

/-- The first graph-convolution kernel's stored tile at (p, q). -/
theorem pay0_apply (v0 v3 : Vec Ideal S5000x128 .f32) (v5 v8 : Vec Ideal S128x128 .bf16) (v12 : Vec Ideal S1x128 .f32)
    (p : Fin 5000) (q : Fin 128) :
    k0_pay1 (F := Ideal) v0 v3 v5 v8 v12 (ix2 p q) = conv v0 v3 v5 v8 v12 p q := by
  unfold k0_pay1 conv
  simp only [truncf_apply, maximumf_apply, addf_apply, broadcast_apply]
  unfold dot_S5000x128_S128x128_S5000x128_1_0_0_1_n_n
  rw [Cert.Dense.matmul_plain_apply, Cert.Dense.matmul_plain_apply, broadcastTo_1b_ab_apply]
  simp only [truncf_apply, shapeCast_self]
  rfl

/-- The second graph-convolution kernel's stored tile at (p, q). -/
theorem pay1_apply (v0 : Vec Ideal S5000x128 .f32) (v3 : Vec Ideal S5000x128 .bf16) (v5 v8 : Vec Ideal S128x128 .bf16) (v12 : Vec Ideal S1x128 .f32)
    (p : Fin 5000) (q : Fin 128) :
    k1_pay1 (F := Ideal) v0 v3 v5 v8 v12 (ix2 p q) = conv v0 v3 v5 v8 v12 p q := by
  unfold k1_pay1 conv
  simp only [truncf_apply, maximumf_apply, addf_apply, broadcast_apply]
  unfold dot_S5000x128_S128x128_S5000x128_1_0_0_1_n_n
  rw [Cert.Dense.matmul_plain_apply, Cert.Dense.matmul_plain_apply, broadcastTo_1b_ab_apply]
  simp only [truncf_apply, shapeCast_self]
  rfl

/-- A hidden entry of the heads kernel, as the tile computes it. -/
theorem hidden_apply (v0 : Vec Ideal S6400x256 .bf16) (v2 : Vec Ideal S256x128 .bf16) (v5 : Vec Ideal S1x128 .f32)
    (p : Fin 6400) (c : Fin 128) :
    (truncf .bf16 (maximumf (addf (matmul (φ₁ := .bf16) (φ₂ := .bf16) dot_S6400x256_S256x128_S6400x128_1_0_0_1_n_n none (k2_pay2 (F := Ideal) v0)
        (v2 : FVec Ideal S256x128 .bf16) (constant S6400x128 .f32 0x00000000#32))
        (broadcastTo S6400x128 (v5 : FVec Ideal S1x128 .f32) broadcasts_S1x128_S6400x128))
        (broadcast S6400x128 (Scalar.ofBits .f32 0x00000000#32))) bitsLt_bf16_f32 : FVec Ideal S6400x128 .bf16) (ix2 p c)
      = hid v0 v2 v5 p c := by
  unfold hid k2_pay2
  simp only [truncf_apply, maximumf_apply, addf_apply, broadcast_apply]
  unfold dot_S6400x256_S256x128_S6400x128_1_0_0_1_n_n
  rw [Cert.Dense.matmul_plain_apply, broadcastTo_1b_ab_apply]
  simp only [shapeCast_self]
  rfl

/-- The heads kernel's sum of wide second layers at (p, q), before the exponential is chosen. -/
theorem raw_apply (v0 : Vec Ideal S6400x256 .bf16) (v2 : Vec Ideal S256x128 .bf16) (v5 : Vec Ideal S1x128 .f32)
    (v12 : Vec Ideal S128x2 .bf16) (v15 : Vec Ideal S1x2 .f32) (v19 : Vec Ideal S256x128 .bf16) (v22 : Vec Ideal S1x128 .f32)
    (v29 : Vec Ideal S128x2 .bf16) (v32 : Vec Ideal S1x2 .f32) (p : Fin 6400) (q : Fin 2) :
    addf (k2_pay3 (F := Ideal) v0 v2 v5 v12 v15) (addf (k2_pay4 (F := Ideal) v0 v19 v22 v29) (k2_pay5 (F := Ideal) v32)) (ix2 p q)
      = wide v0 v2 v5 v12 v15 v19 v22 v29 v32 p q := by
  unfold k2_pay3 k2_pay4 k2_pay5 wide
  simp only [addf_apply]
  unfold dot_S6400x128_S128x2_S6400x2_1_0_0_1_n_n
  rw [Cert.Dense.matmul_plain_apply, Cert.Dense.matmul_plain_apply, broadcastTo_1b_ab_apply, broadcastTo_1b_ab_apply]
  simp only [shapeCast_self]
  refine congrArg₂ (· + ·) (congrArg₂ (· + ·) (Finset.sum_congr rfl fun c _ => ?_) rfl) (congrArg₂ (· + ·) (Finset.sum_congr rfl fun c _ => ?_) rfl)
  · exact congrArg (· * v12 (ix2 c q)) (hidden_apply v0 v2 v5 p c)
  · exact congrArg (· * v29 (ix2 c q)) (hidden_apply v0 v19 v22 p c)

/-- Column 0 of the heads kernel's stored tile is the sum of wide layers itself. -/
theorem pay2_col0 (a b d : FVec Ideal S6400x2 .f32) (p : Fin 6400) :
    k2_pay1 (F := Ideal) a b d (ix2 p (0 : Fin 2)) = addf a (addf b d) (ix2 p (0 : Fin 2)) := by
  unfold k2_pay1
  rw [select_apply]
  have hc : (cmpi .eq (iota .tc S6400x2 32 [1] iota_S6400x2_d1_w32) (broadcast S6400x2 1#32)) (ix2 p (0 : Fin 2)) = 0#1 := by
    show IntOp.cmpi .eq (iota .tc S6400x2 32 [1] iota_S6400x2_d1_w32 (ix2 p (0 : Fin 2))) 1#32 = 0#1
    rw [iota_single_apply]
    rfl
  rw [hc, select_zero]

/-- Column 1 of the heads kernel's stored tile is the exponential of half the sum of wide layers. -/
theorem pay2_col1 (a b d : FVec Ideal S6400x2 .f32) (p : Fin 6400) :
    k2_pay1 (F := Ideal) a b d (ix2 p (1 : Fin 2))
      = Ideal.exp (Ideal.ofBits .f32 0x3F000000#32 * addf a (addf b d) (ix2 p (1 : Fin 2))) := by
  unfold k2_pay1
  rw [select_apply]
  have hc : (cmpi .eq (iota .tc S6400x2 32 [1] iota_S6400x2_d1_w32) (broadcast S6400x2 1#32)) (ix2 p (1 : Fin 2)) = 1#1 := by
    show IntOp.cmpi .eq (iota .tc S6400x2 32 [1] iota_S6400x2_d1_w32 (ix2 p (1 : Fin 2))) 1#32 = 1#1
    rw [iota_single_apply]
    rfl
  rw [hc, select_one]
  rfl

/-- What a heads tile stores in column n of a row whose sum of wide layers is r: r itself in column 0, the exponential of
    half of it in column 1. -/
def sel (n : ℕ) (r : EReal) : EReal := if n = 0 then r else Ideal.exp (Ideal.ofBits .f32 0x3F000000#32 * r)

/-- The heads kernel's stored tile at (p, q). -/
theorem pay2_apply (a b d : FVec Ideal S6400x2 .f32) (p : Fin 6400) (q : Fin 2) :
    k2_pay1 (F := Ideal) a b d (ix2 p q) = sel q.val (addf a (addf b d) (ix2 p q)) := by
  match q with
  | ⟨0, _⟩ => exact pay2_col0 a b d p
  | ⟨1, _⟩ => exact pay2_col1 a b d p

/-- The sum of wide layers at (p, q) depends only on row p of the edge features, column q of the second layers and
    entry q of their bias rows, and on the whole of the first layers. -/
theorem wide_congr {a a' k n : ℕ} (C : (⟨2, ![a, k]⟩ : Shape).Idx → EReal)
    (Wm1 : (⟨2, ![k, n]⟩ : Shape).Idx → EReal) (Bm1 : (⟨2, ![1, n]⟩ : Shape).Idx → EReal)
    (Wm2 : (⟨2, ![n, 2]⟩ : Shape).Idx → EReal) (Bm2 : (⟨2, ![1, 2]⟩ : Shape).Idx → EReal)
    (Wv1 : (⟨2, ![k, n]⟩ : Shape).Idx → EReal) (Bv1 : (⟨2, ![1, n]⟩ : Shape).Idx → EReal)
    (Wv2 : (⟨2, ![n, 2]⟩ : Shape).Idx → EReal) (Bv2 : (⟨2, ![1, 2]⟩ : Shape).Idx → EReal)
    (C' : (⟨2, ![a', k]⟩ : Shape).Idx → EReal)
    (Wm1' : (⟨2, ![k, n]⟩ : Shape).Idx → EReal) (Bm1' : (⟨2, ![1, n]⟩ : Shape).Idx → EReal)
    (Wm2' : (⟨2, ![n, 2]⟩ : Shape).Idx → EReal) (Bm2' : (⟨2, ![1, 2]⟩ : Shape).Idx → EReal)
    (Wv1' : (⟨2, ![k, n]⟩ : Shape).Idx → EReal) (Bv1' : (⟨2, ![1, n]⟩ : Shape).Idx → EReal)
    (Wv2' : (⟨2, ![n, 2]⟩ : Shape).Idx → EReal) (Bv2' : (⟨2, ![1, 2]⟩ : Shape).Idx → EReal)
    (p : Fin a) (p' : Fin a') (q q' : Fin 2)
    (hC : ∀ d, C (ix2 p d) = C' (ix2 p' d))
    (hWm1 : ∀ d c, Wm1 (ix2 d c) = Wm1' (ix2 d c)) (hBm1 : ∀ c, Bm1 (ix2 (0 : Fin 1) c) = Bm1' (ix2 (0 : Fin 1) c))
    (hWm2 : ∀ c, Wm2 (ix2 c q) = Wm2' (ix2 c q')) (hBm2 : Bm2 (ix2 (0 : Fin 1) q) = Bm2' (ix2 (0 : Fin 1) q'))
    (hWv1 : ∀ d c, Wv1 (ix2 d c) = Wv1' (ix2 d c)) (hBv1 : ∀ c, Bv1 (ix2 (0 : Fin 1) c) = Bv1' (ix2 (0 : Fin 1) c))
    (hWv2 : ∀ c, Wv2 (ix2 c q) = Wv2' (ix2 c q')) (hBv2 : Bv2 (ix2 (0 : Fin 1) q) = Bv2' (ix2 (0 : Fin 1) q')) :
    wide C Wm1 Bm1 Wm2 Bm2 Wv1 Bv1 Wv2 Bv2 p q = wide C' Wm1' Bm1' Wm2' Bm2' Wv1' Bv1' Wv2' Bv2' p' q' := by
  unfold wide hid
  simp only [hC, hWm1, hBm1, hWm2, hBm2, hWv1, hBv1, hWv2, hBv2]

end Cert.KernelIdeal.Tile

end
-- ==== Proof.Conv0.lean ====
/-
  The first graph-convolution region, from whatever its buffers hold when it is entered: its output array ends
  holding, at (i, j), relu((Σ_c agg(i,c)·W_rel(c,j) + Σ_c x(i,c)·W_root(c,j)) + b(j)) of the arrays it was handed.
  Grid point t handles rows 5000·t … 5000·t + 4999: it is handed those rows of agg and x and the whole of the weights and the
  bias row, and its tile is written back over the same rows of the output; the ten tiles cover the output.
-/
import proofs.«159588_j78761110274681_2_alg».proof.Proof.Gen.KernelIdeal.Frame
import proofs.«159588_j78761110274681_2_alg».proof.Proof.Pay

set_option maxRecDepth 16384

noncomputable section

namespace Cert.KernelIdeal.Conv0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer's whole output from whole arrays. -/
def G (A : S50000x128.Idx → EReal) (X : S50000x128.Idx → EReal) (Wr Wo : S128x128.Idx → EReal) (B : S1x128.Idx → EReal) :
    S50000x128.Idx → EReal := fun i => Tile.conv A X Wr Wo B (i 0) (i 1)

/-- Where each window's block sits at a grid point: agg, x and the output move down the rows together, the weights and
    the bias row stay. -/
theorem idx_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every block of rows is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- What point t writes back is block t of the layer's output of the arrays as the region finds them. -/
theorem flushed_eq (c : Dev nD) (t : Fin cfg0.N) :
    (dat0 V c).flushed 5 t = ((cfg0.win 5).blk t).view.read (Elt Ideal)
      (G (V c main_v15) (V c main_arg0) (V c main_v16) (V c main_v17) (V c main_v18)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts t
  funext j
  obtain ⟨p, q, rfl⟩ : ∃ (p : Fin 5000) (q : Fin 128), j = ix2 p q := ⟨j 0, j 1, eq_ix2 j⟩
  refine (Tile.pay0_apply (iblk0 V c 0 t) (iblk0 V c 1 t) (iblk0 V c 2 t) (iblk0 V c 4 t) (iblk0 V c 3 t) p q).trans ?_
  show Tile.conv (iblk0 V c 0 t) (iblk0 V c 1 t) (iblk0 V c 2 t) (iblk0 V c 4 t) (iblk0 V c 3 t) p q
    = Tile.conv (V c main_v15) (V c main_arg0) (V c main_v16) (V c main_v17) (V c main_v18)
        ((((cfg0.win 5).blk t).view.emb (ix2 p q)) 0) ((((cfg0.win 5).blk t).view.emb (ix2 p q)) 1)
  refine Tile.conv_congr (iblk0 V c 0 t) (iblk0 V c 1 t) (iblk0 V c 2 t) (iblk0 V c 4 t) (iblk0 V c 3 t)
    (V c main_v15) (V c main_arg0) (V c main_v16) (V c main_v17) (V c main_v18) p _ q _ ?_ ?_ ?_ ?_ ?_
  · intro d
    show V c main_v15 (((cfg0.win 0).blk t).view.emb (ix2 p d)) = V c main_v15 _
    refine congrArg (V c main_v15) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * d.val = d.val; omega
  · intro d
    show V c main_arg0 (((cfg0.win 1).blk t).view.emb (ix2 p d)) = V c main_arg0 _
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * d.val = d.val; omega
  · intro d
    show V c main_v16 (((cfg0.win 2).blk t).view.emb (ix2 d q)) = V c main_v16 _
    refine congrArg (V c main_v16) (funext fun a => Fin.ext ?_)
    match a with
    | ⟨0, _⟩ => show win0_2.index t (0 : Fin 2) * 128 + 1 * d.val = d.val; omega
    | ⟨1, _⟩ => show win0_2.index t (1 : Fin 2) * 128 + 1 * q.val = win0_5.index t (1 : Fin 2) * 128 + 1 * q.val; omega
  · intro d
    show V c main_v17 (((cfg0.win 4).blk t).view.emb (ix2 d q)) = V c main_v17 _
    refine congrArg (V c main_v17) (funext fun a => Fin.ext ?_)
    match a with
    | ⟨0, _⟩ => show win0_4.index t (0 : Fin 2) * 128 + 1 * d.val = d.val; omega
    | ⟨1, _⟩ => show win0_4.index t (1 : Fin 2) * 128 + 1 * q.val = win0_5.index t (1 : Fin 2) * 128 + 1 * q.val; omega
  · show V c main_v18 (((cfg0.win 3).blk t).view.emb (ix2 (0 : Fin 1) q)) = V c main_v18 _
    refine congrArg (V c main_v18) (funext fun a => Fin.ext ?_)
    match a with
    | ⟨0, _⟩ => show win0_3.index t (0 : Fin 2) * 1 + 1 * 0 = 0; omega
    | ⟨1, _⟩ => show win0_3.index t (1 : Fin 2) * 128 + 1 * q.val = win0_5.index t (1 : Fin 2) * 128 + 1 * q.val; omega

/-- An index of the output is in point t's block iff its row is among the block's rows. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v19).slice (win0_5.rect t)).set ↔ _
  rw [View.set_slice_whole, Rect.mem_set_unit]
  exact Iff.rfl

/-- The ten tiles cover the output. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region. -/
theorem final (c : Dev nD) : (dat0 V c).arrAt 5 cfg0.N
    = G (V c main_v15) (V c main_arg0) (V c main_v16) (V c main_v17) (V c main_v18) :=
  (dat0 V c).arrAt_eq_of_cover 5 _ (fun t _ => flushed_eq V c t) cover

end Cert.KernelIdeal.Conv0

end
-- ==== Proof.Conv1.lean ====
/-
  The second graph-convolution region, from whatever its buffers hold when it is entered: its output array ends
  holding, at (i, j), relu((Σ_c agg(i,c)·W_rel(c,j) + Σ_c x(i,c)·W_root(c,j)) + b(j)) of the arrays it was handed.
  Grid point t handles rows 5000·t … 5000·t + 4999: it is handed those rows of agg and x and the whole of the weights and the
  bias row, and its tile is written back over the same rows of the output; the ten tiles cover the output.
-/
import proofs.«159588_j78761110274681_2_alg».proof.Proof.Gen.KernelIdeal.Frame
import proofs.«159588_j78761110274681_2_alg».proof.Proof.Pay

set_option maxRecDepth 16384

noncomputable section

namespace Cert.KernelIdeal.Conv1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer's whole output from whole arrays. -/
def G (A : S50000x128.Idx → EReal) (X : S50000x128.Idx → EReal) (Wr Wo : S128x128.Idx → EReal) (B : S1x128.Idx → EReal) :
    S50000x128.Idx → EReal := fun i => Tile.conv A X Wr Wo B (i 0) (i 1)

/-- Where each window's block sits at a grid point: agg, x and the output move down the rows together, the weights and
    the bias row stay. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every block of rows is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- What point t writes back is block t of the layer's output of the arrays as the region finds them. -/
theorem flushed_eq (c : Dev nD) (t : Fin cfg1.N) :
    (dat1 V c).flushed 5 t = ((cfg1.win 5).blk t).view.read (Elt Ideal)
      (G (V c main_v30) (V c main_v19) (V c main_v31) (V c main_v32) (V c main_v33)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts t
  funext j
  obtain ⟨p, q, rfl⟩ : ∃ (p : Fin 5000) (q : Fin 128), j = ix2 p q := ⟨j 0, j 1, eq_ix2 j⟩
  refine (Tile.pay1_apply (iblk1 V c 0 t) (iblk1 V c 1 t) (iblk1 V c 2 t) (iblk1 V c 4 t) (iblk1 V c 3 t) p q).trans ?_
  show Tile.conv (iblk1 V c 0 t) (iblk1 V c 1 t) (iblk1 V c 2 t) (iblk1 V c 4 t) (iblk1 V c 3 t) p q
    = Tile.conv (V c main_v30) (V c main_v19) (V c main_v31) (V c main_v32) (V c main_v33)
        ((((cfg1.win 5).blk t).view.emb (ix2 p q)) 0) ((((cfg1.win 5).blk t).view.emb (ix2 p q)) 1)
  refine Tile.conv_congr (iblk1 V c 0 t) (iblk1 V c 1 t) (iblk1 V c 2 t) (iblk1 V c 4 t) (iblk1 V c 3 t)
    (V c main_v30) (V c main_v19) (V c main_v31) (V c main_v32) (V c main_v33) p _ q _ ?_ ?_ ?_ ?_ ?_
  · intro d
    show V c main_v30 (((cfg1.win 0).blk t).view.emb (ix2 p d)) = V c main_v30 _
    refine congrArg (V c main_v30) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * d.val = d.val; omega
  · intro d
    show V c main_v19 (((cfg1.win 1).blk t).view.emb (ix2 p d)) = V c main_v19 _
    refine congrArg (V c main_v19) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * d.val = d.val; omega
  · intro d
    show V c main_v31 (((cfg1.win 2).blk t).view.emb (ix2 d q)) = V c main_v31 _
    refine congrArg (V c main_v31) (funext fun a => Fin.ext ?_)
    match a with
    | ⟨0, _⟩ => show win1_2.index t (0 : Fin 2) * 128 + 1 * d.val = d.val; omega
    | ⟨1, _⟩ => show win1_2.index t (1 : Fin 2) * 128 + 1 * q.val = win1_5.index t (1 : Fin 2) * 128 + 1 * q.val; omega
  · intro d
    show V c main_v32 (((cfg1.win 4).blk t).view.emb (ix2 d q)) = V c main_v32 _
    refine congrArg (V c main_v32) (funext fun a => Fin.ext ?_)
    match a with
    | ⟨0, _⟩ => show win1_4.index t (0 : Fin 2) * 128 + 1 * d.val = d.val; omega
    | ⟨1, _⟩ => show win1_4.index t (1 : Fin 2) * 128 + 1 * q.val = win1_5.index t (1 : Fin 2) * 128 + 1 * q.val; omega
  · show V c main_v33 (((cfg1.win 3).blk t).view.emb (ix2 (0 : Fin 1) q)) = V c main_v33 _
    refine congrArg (V c main_v33) (funext fun a => Fin.ext ?_)
    match a with
    | ⟨0, _⟩ => show win1_3.index t (0 : Fin 2) * 1 + 1 * 0 = 0; omega
    | ⟨1, _⟩ => show win1_3.index t (1 : Fin 2) * 128 + 1 * q.val = win1_5.index t (1 : Fin 2) * 128 + 1 * q.val; omega

/-- An index of the output is in point t's block iff its row is among the block's rows. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v34).slice (win1_5.rect t)).set ↔ _
  rw [View.set_slice_whole, Rect.mem_set_unit]
  exact Iff.rfl

/-- The ten tiles cover the output. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region. -/
theorem final (c : Dev nD) : (dat1 V c).arrAt 5 cfg1.N
    = G (V c main_v30) (V c main_v19) (V c main_v31) (V c main_v32) (V c main_v33) :=
  (dat1 V c).arrAt_eq_of_cover 5 _ (fun t _ => flushed_eq V c t) cover

end Cert.KernelIdeal.Conv1

end
-- ==== Proof.Heads.lean ====
/-
  The heads region, from whatever its buffers hold when it is entered: its [800000, 2] output ends holding, in row e,
  the sum of the two heads' wide second layers of row e of the edge features — itself in column 0, the exponential of half
  of it in column 1. Grid point t handles rows 6400·t … 6400·t + 6399 and is handed the whole of every weight and bias
  array; the 125 tiles cover the output.
-/
import proofs.«159588_j78761110274681_2_alg».proof.Proof.Gen.KernelIdeal.Frame
import proofs.«159588_j78761110274681_2_alg».proof.Proof.Pay

set_option maxRecDepth 16384

noncomputable section

namespace Cert.KernelIdeal.Heads

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The region's whole output from whole arrays. -/
def G (C : S800000x256.Idx → EReal) (Wm1 : S256x128.Idx → EReal) (Bm1 : S1x128.Idx → EReal) (Wm2 : S128x2.Idx → EReal)
    (Bm2 : S1x2.Idx → EReal) (Wv1 : S256x128.Idx → EReal) (Bv1 : S1x128.Idx → EReal) (Wv2 : S128x2.Idx → EReal)
    (Bv2 : S1x2.Idx → EReal) : S800000x2.Idx → EReal :=
  fun i => Tile.sel (i 1).val (Tile.wide C Wm1 Bm1 Wm2 Bm2 Wv1 Bv1 Wv2 Bv2 (i 0) (i 1))

/-- Where each window's block sits at a grid point: the edge features and the output move down the rows together,
    everything else stays. -/
theorem idx_facts : ∀ t : Fin cfg2.N, win2_0.index t (0 : Fin 2) = win2_9.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (1 : Fin 2) = 0 ∧ win2_9.index t (0 : Fin 2) ≤ 124 :=
  (by decide +kernel : ∀ t : Fin grid2.N, _)

/-- Every block of rows is some point's. -/
theorem idx_onto : ∀ q0 : Fin 125, ∃ t : Fin cfg2.N, win2_9.index t = ![q0.val, 0] :=
  (by decide +kernel : ∀ q0 : Fin 125, ∃ t : Fin grid2.N, win2_9.index t = ![q0.val, 0])

set_option maxHeartbeats 4000000 in
/-- What point t writes back is block t of the region's output of the arrays as the region finds them. -/
theorem flushed_eq (c : Dev nD) (t : Fin cfg2.N) :
    (dat2 V c).flushed 9 t = ((cfg2.win 9).blk t).view.read (Elt Ideal)
      (G (V c main_v49) (V c main_v50) (V c main_v52) (V c main_v56) (V c main_v61) (V c main_v51) (V c main_v53) (V c main_v58) (V c main_v63)) := by
  show (cfg2.win 9).cut (grid2.coords t) ((dat2 V c).after 9 t) = _
  rw [after2_9]
  unfold out2_9
  rw [View.canon_unit_zero hz]
  simp only [View.ld_unit_zero (S := S6400x256) hz, View.ld_unit_zero (S := S256x128) hz, View.ld_unit_zero (S := S1x128) hz,
    View.ld_unit_zero (S := S128x2) hz, View.ld_unit_zero (S := S1x2) hz]
  obtain ⟨e0, e1, e2, e3, e4, e5, e6, e7, e8, e9, e10, e11, e12, e13, e14, e15, e16, e17, e18, e19⟩ := idx_facts t
  funext j
  obtain ⟨p, q, rfl⟩ : ∃ (p : Fin 6400) (q : Fin 2), j = ix2 p q := ⟨j 0, j 1, eq_ix2 j⟩
  refine (Tile.pay2_apply (k2_pay3 (iblk2 V c 0 t) (iblk2 V c 1 t) (iblk2 V c 2 t) (iblk2 V c 3 t) (iblk2 V c 4 t))
    (k2_pay4 (iblk2 V c 0 t) (iblk2 V c 5 t) (iblk2 V c 6 t) (iblk2 V c 7 t)) (k2_pay5 (iblk2 V c 8 t)) p q).trans ?_
  rw [Tile.raw_apply (iblk2 V c 0 t) (iblk2 V c 1 t) (iblk2 V c 2 t) (iblk2 V c 3 t) (iblk2 V c 4 t) (iblk2 V c 5 t) (iblk2 V c 6 t) (iblk2 V c 7 t) (iblk2 V c 8 t) p q]
  show Tile.sel q.val _ = Tile.sel ((((cfg2.win 9).blk t).view.emb (ix2 p q)) 1).val
      (Tile.wide (V c main_v49) (V c main_v50) (V c main_v52) (V c main_v56) (V c main_v61) (V c main_v51) (V c main_v53) (V c main_v58) (V c main_v63)
        ((((cfg2.win 9).blk t).view.emb (ix2 p q)) 0) ((((cfg2.win 9).blk t).view.emb (ix2 p q)) 1))
  have hq : ((((cfg2.win 9).blk t).view.emb (ix2 p q)) 1).val = q.val := by
    show win2_9.index t (1 : Fin 2) * 2 + 1 * q.val = q.val
    omega
  rw [hq]
  refine congrArg (Tile.sel q.val) ?_
  refine Tile.wide_congr (iblk2 V c 0 t) (iblk2 V c 1 t) (iblk2 V c 2 t) (iblk2 V c 3 t) (iblk2 V c 4 t) (iblk2 V c 5 t) (iblk2 V c 6 t) (iblk2 V c 7 t) (iblk2 V c 8 t)
    (V c main_v49) (V c main_v50) (V c main_v52) (V c main_v56) (V c main_v61) (V c main_v51) (V c main_v53) (V c main_v58) (V c main_v63)
    p _ q _ ?_ ?_ ?_ ?_ ?_ ?_ ?_ ?_ ?_
  · intro d
    show V c main_v49 (((cfg2.win 0).blk t).view.emb (ix2 p d)) = V c main_v49 _
    refine congrArg (V c main_v49) (funext fun a => Fin.ext ?_)
    match a with
    | ⟨0, _⟩ => show win2_0.index t (0 : Fin 2) * 6400 + 1 * p.val = win2_9.index t (0 : Fin 2) * 6400 + 1 * p.val; omega
    | ⟨1, _⟩ => show win2_0.index t (1 : Fin 2) * 256 + 1 * d.val = d.val; omega
  · intro d c'
    show V c main_v50 (((cfg2.win 1).blk t).view.emb (ix2 d c')) = V c main_v50 _
    refine congrArg (V c main_v50) (funext fun a => Fin.ext ?_)
    match a with
    | ⟨0, _⟩ => show win2_1.index t (0 : Fin 2) * 256 + 1 * d.val = d.val; omega
    | ⟨1, _⟩ => show win2_1.index t (1 : Fin 2) * 128 + 1 * c'.val = c'.val; omega
  · intro c'
    show V c main_v52 (((cfg2.win 2).blk t).view.emb (ix2 (0 : Fin 1) c')) = V c main_v52 _
    refine congrArg (V c main_v52) (funext fun a => Fin.ext ?_)
    match a with
    | ⟨0, _⟩ => show win2_2.index t (0 : Fin 2) * 1 + 1 * 0 = 0; omega
    | ⟨1, _⟩ => show win2_2.index t (1 : Fin 2) * 128 + 1 * c'.val = c'.val; omega
  · intro c'
    show V c main_v56 (((cfg2.win 3).blk t).view.emb (ix2 c' q)) = V c main_v56 _
    refine congrArg (V c main_v56) (funext fun a => Fin.ext ?_)
    match a with
    | ⟨0, _⟩ => show win2_3.index t (0 : Fin 2) * 128 + 1 * c'.val = c'.val; omega
    | ⟨1, _⟩ => show win2_3.index t (1 : Fin 2) * 2 + 1 * q.val = win2_9.index t (1 : Fin 2) * 2 + 1 * q.val; omega
  · show V c main_v61 (((cfg2.win 4).blk t).view.emb (ix2 (0 : Fin 1) q)) = V c main_v61 _
    refine congrArg (V c main_v61) (funext fun a => Fin.ext ?_)
    match a with
    | ⟨0, _⟩ => show win2_4.index t (0 : Fin 2) * 1 + 1 * 0 = 0; omega
    | ⟨1, _⟩ => show win2_4.index t (1 : Fin 2) * 2 + 1 * q.val = win2_9.index t (1 : Fin 2) * 2 + 1 * q.val; omega
  · intro d c'
    show V c main_v51 (((cfg2.win 5).blk t).view.emb (ix2 d c')) = V c main_v51 _
    refine congrArg (V c main_v51) (funext fun a => Fin.ext ?_)
    match a with
    | ⟨0, _⟩ => show win2_5.index t (0 : Fin 2) * 256 + 1 * d.val = d.val; omega
    | ⟨1, _⟩ => show win2_5.index t (1 : Fin 2) * 128 + 1 * c'.val = c'.val; omega
  · intro c'
    show V c main_v53 (((cfg2.win 6).blk t).view.emb (ix2 (0 : Fin 1) c')) = V c main_v53 _
    refine congrArg (V c main_v53) (funext fun a => Fin.ext ?_)
    match a with
    | ⟨0, _⟩ => show win2_6.index t (0 : Fin 2) * 1 + 1 * 0 = 0; omega
    | ⟨1, _⟩ => show win2_6.index t (1 : Fin 2) * 128 + 1 * c'.val = c'.val; omega
  · intro c'
    show V c main_v58 (((cfg2.win 7).blk t).view.emb (ix2 c' q)) = V c main_v58 _
    refine congrArg (V c main_v58) (funext fun a => Fin.ext ?_)
    match a with
    | ⟨0, _⟩ => show win2_7.index t (0 : Fin 2) * 128 + 1 * c'.val = c'.val; omega
    | ⟨1, _⟩ => show win2_7.index t (1 : Fin 2) * 2 + 1 * q.val = win2_9.index t (1 : Fin 2) * 2 + 1 * q.val; omega
  · show V c main_v63 (((cfg2.win 8).blk t).view.emb (ix2 (0 : Fin 1) q)) = V c main_v63 _
    refine congrArg (V c main_v63) (funext fun a => Fin.ext ?_)
    match a with
    | ⟨0, _⟩ => show win2_8.index t (0 : Fin 2) * 1 + 1 * 0 = 0; omega
    | ⟨1, _⟩ => show win2_8.index t (1 : Fin 2) * 2 + 1 * q.val = win2_9.index t (1 : Fin 2) * 2 + 1 * q.val; omega

/-- An index of the output is in point t's block iff its row is among the block's rows. -/
theorem mem_blk (t : Fin cfg2.N) (i : S800000x2.Idx) :
    i ∈ ((cfg2.win 9).blk t).view.set ↔ ∀ a : Fin 2, win2_9.index t a * S6400x2.size a ≤ (i a).val ∧ (i a).val < win2_9.index t a * S6400x2.size a + S6400x2.size a := by
  show i ∈ ((View.whole main_v64).slice (win2_9.rect t)).set ↔ _
  rw [View.set_slice_whole, Rect.mem_set_unit]
  exact Iff.rfl

/-- The 125 tiles cover the output. -/
theorem cover (i : S800000x2.Idx) : ∃ t : Fin cfg2.N, (cfg2.win 9).flush t = true ∧ i ∈ ((cfg2.win 9).blk t).view.set := by
  have hi0 : (i 0).val < 800000 := (i 0).isLt
  have hi1 : (i 1).val < 2 := (i 1).isLt
  obtain ⟨t, ht⟩ := idx_onto ⟨(i 0).val / 6400, by omega⟩
  have q0 : win2_9.index t (0 : Fin 2) = (i 0).val / 6400 := congrFun ht 0
  have q1 : win2_9.index t (1 : Fin 2) = 0 := congrFun ht 1
  refine ⟨t, flush2_9 t, ?_⟩
  rw [mem_blk]
  intro a
  match a with
  | ⟨0, _⟩ => show win2_9.index t (0 : Fin 2) * 6400 ≤ (i 0).val ∧ (i 0).val < win2_9.index t (0 : Fin 2) * 6400 + 6400; omega
  | ⟨1, _⟩ => show win2_9.index t (1 : Fin 2) * 2 ≤ (i 1).val ∧ (i 1).val < win2_9.index t (1 : Fin 2) * 2 + 2; omega

/-- The output array after the region. -/
theorem final (c : Dev nD) : (dat2 V c).arrAt 9 cfg2.N
    = G (V c main_v49) (V c main_v50) (V c main_v52) (V c main_v56) (V c main_v61) (V c main_v51) (V c main_v53) (V c main_v58) (V c main_v63) :=
  (dat2 V c).arrAt_eq_of_cover 9 _ (fun t _ => flushed_eq V c t) cover

end Cert.KernelIdeal.Heads

end
-- ==== Proof.Stages.lean ====
/-
  The idealized kernel's four stretches of host operations, each read from an arbitrary valuation of the buffers it
  starts from. At the ideal values a change of storage format is the identity, so the kernel's gathers of rows by source
  node and its accumulating scatters by destination node are the reference's own stages, operation for operation; the
  remaining operations only re-lay weights and bias vectors (a vector as a one-row matrix, a column joined with a column
  of zeros) or cut the two result columns out of the heads' output.
-/
import proofs.«159588_j78761110274681_2_alg».proof.Proof.Gen.KernelIdeal.Launch
import proofs.«159588_j78761110274681_2_alg».proof.Proof.Gen.ReferenceIdeal.Read
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo
open Cert.ReferenceIdeal.Read (val_main_v1 val_main_v3 val_main_v13 val_main_v20 val_main_v30 val_main_v37 val_main_v52)

variable (W : Valuation τ sig (Elt Ideal))

/-- Reads what is left of a stretch inside the operands of a concatenation, one operation at a time. -/
local macro "inner_results" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

/-! ## Before the first region -/

theorem s0_v1 : after hostOps0 W (Proc.devRef .tc main_v1) = val_main_v1 (F := Ideal) (W (Proc.devRef .tc main_arg1)) := by
  after_results_simp; rfl
theorem s0_v3 : after hostOps0 W (Proc.devRef .tc main_v3) = val_main_v3 (F := Ideal) (W (Proc.devRef .tc main_arg1)) := by
  after_results_simp; rfl
/-- The first aggregation: rows of x gathered by source node, added up by destination node. -/
theorem s0_v15 : after hostOps0 W (Proc.devRef .tc main_v15) = val_main_v13 (F := Ideal) (W (Proc.devRef .tc main_arg0)) (W (Proc.devRef .tc main_arg1)) := by
  after_results_simp; rfl
theorem s0_v16 : after hostOps0 W (Proc.devRef .tc main_v16) = W (Proc.devRef .tc main_arg2) := by
  after_results_simp; rfl
theorem s0_v17 : after hostOps0 W (Proc.devRef .tc main_v17) = W (Proc.devRef .tc main_arg4) := by
  after_results_simp; rfl
theorem s0_v18 : after hostOps0 W (Proc.devRef .tc main_v18) = shapeCast S1x128 (W (Proc.devRef .tc main_arg3)) shapeCasts_S128_S1x128 := by
  after_results_simp; rfl
theorem s0_arg0 : after hostOps0 W (Proc.devRef .tc main_arg0) = W (Proc.devRef .tc main_arg0) := by after_results_simp
theorem s0_arg5 : after hostOps0 W (Proc.devRef .tc main_arg5) = W (Proc.devRef .tc main_arg5) := by after_results_simp
theorem s0_arg6 : after hostOps0 W (Proc.devRef .tc main_arg6) = W (Proc.devRef .tc main_arg6) := by after_results_simp
theorem s0_arg7 : after hostOps0 W (Proc.devRef .tc main_arg7) = W (Proc.devRef .tc main_arg7) := by after_results_simp
theorem s0_arg8 : after hostOps0 W (Proc.devRef .tc main_arg8) = W (Proc.devRef .tc main_arg8) := by after_results_simp
theorem s0_arg9 : after hostOps0 W (Proc.devRef .tc main_arg9) = W (Proc.devRef .tc main_arg9) := by after_results_simp
theorem s0_arg10 : after hostOps0 W (Proc.devRef .tc main_arg10) = W (Proc.devRef .tc main_arg10) := by after_results_simp
theorem s0_arg11 : after hostOps0 W (Proc.devRef .tc main_arg11) = W (Proc.devRef .tc main_arg11) := by after_results_simp
theorem s0_arg12 : after hostOps0 W (Proc.devRef .tc main_arg12) = W (Proc.devRef .tc main_arg12) := by after_results_simp
theorem s0_arg13 : after hostOps0 W (Proc.devRef .tc main_arg13) = W (Proc.devRef .tc main_arg13) := by after_results_simp
theorem s0_arg14 : after hostOps0 W (Proc.devRef .tc main_arg14) = W (Proc.devRef .tc main_arg14) := by after_results_simp
theorem s0_arg15 : after hostOps0 W (Proc.devRef .tc main_arg15) = W (Proc.devRef .tc main_arg15) := by after_results_simp

/-! ## Between the first and the second region -/

section Second
variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal))

/-- The second aggregation: rows of the first layer's output gathered by source node, added up by destination node. -/
theorem s1_v30 (h1 : W (Proc.devRef .tc main_v1) = val_main_v1 (F := Ideal) x1) (h3 : W (Proc.devRef .tc main_v3) = val_main_v3 (F := Ideal) x1)
    (h19 : W (Proc.devRef .tc main_v19) = val_main_v20 (F := Ideal) x0 x1 x2 x3 x4) :
    after hostOps1 W (Proc.devRef .tc main_v30) = val_main_v30 (F := Ideal) x0 x1 x2 x3 x4 := by
  after_results_simp; rw [h1, h3, h19]; rfl
end Second

theorem s1_v31 : after hostOps1 W (Proc.devRef .tc main_v31) = W (Proc.devRef .tc main_arg5) := by
  after_results_simp; rfl
theorem s1_v32 : after hostOps1 W (Proc.devRef .tc main_v32) = W (Proc.devRef .tc main_arg7) := by
  after_results_simp; rfl
theorem s1_v33 : after hostOps1 W (Proc.devRef .tc main_v33) = shapeCast S1x128 (W (Proc.devRef .tc main_arg6)) shapeCasts_S128_S1x128 := by
  after_results_simp; rfl
theorem s1_v19 : after hostOps1 W (Proc.devRef .tc main_v19) = W (Proc.devRef .tc main_v19) := by after_results_simp
theorem s1_v1 : after hostOps1 W (Proc.devRef .tc main_v1) = W (Proc.devRef .tc main_v1) := by after_results_simp
theorem s1_v3 : after hostOps1 W (Proc.devRef .tc main_v3) = W (Proc.devRef .tc main_v3) := by after_results_simp
theorem s1_arg8 : after hostOps1 W (Proc.devRef .tc main_arg8) = W (Proc.devRef .tc main_arg8) := by after_results_simp
theorem s1_arg9 : after hostOps1 W (Proc.devRef .tc main_arg9) = W (Proc.devRef .tc main_arg9) := by after_results_simp
theorem s1_arg10 : after hostOps1 W (Proc.devRef .tc main_arg10) = W (Proc.devRef .tc main_arg10) := by after_results_simp
theorem s1_arg11 : after hostOps1 W (Proc.devRef .tc main_arg11) = W (Proc.devRef .tc main_arg11) := by after_results_simp
theorem s1_arg12 : after hostOps1 W (Proc.devRef .tc main_arg12) = W (Proc.devRef .tc main_arg12) := by after_results_simp
theorem s1_arg13 : after hostOps1 W (Proc.devRef .tc main_arg13) = W (Proc.devRef .tc main_arg13) := by after_results_simp
theorem s1_arg14 : after hostOps1 W (Proc.devRef .tc main_arg14) = W (Proc.devRef .tc main_arg14) := by after_results_simp
theorem s1_arg15 : after hostOps1 W (Proc.devRef .tc main_arg15) = W (Proc.devRef .tc main_arg15) := by after_results_simp

/-! ## Between the second region and the heads -/

section Third
variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal))

set_option maxHeartbeats 4000000 in
/-- The edge features: the second layer's rows at the source node beside its rows at the destination node. -/
theorem s2_v49 (h1 : W (Proc.devRef .tc main_v1) = val_main_v1 (F := Ideal) x1) (h3 : W (Proc.devRef .tc main_v3) = val_main_v3 (F := Ideal) x1)
    (h34 : W (Proc.devRef .tc main_v34) = val_main_v37 (F := Ideal) x0 x1 x2 x3 x4 x5 x6 x7) :
    after hostOps2 W (Proc.devRef .tc main_v49) = val_main_v52 (F := Ideal) x0 x1 x2 x3 x4 x5 x6 x7 := by
  after_results_simp; inner_results; rw [h1, h3, h34]; rfl
end Third

theorem s2_v50 : after hostOps2 W (Proc.devRef .tc main_v50) = W (Proc.devRef .tc main_arg8) := by
  after_results_simp; rfl
theorem s2_v51 : after hostOps2 W (Proc.devRef .tc main_v51) = W (Proc.devRef .tc main_arg12) := by
  after_results_simp; rfl
theorem s2_v52 : after hostOps2 W (Proc.devRef .tc main_v52) = shapeCast S1x128 (W (Proc.devRef .tc main_arg9)) shapeCasts_S128_S1x128 := by
  after_results_simp; rfl
theorem s2_v53 : after hostOps2 W (Proc.devRef .tc main_v53) = shapeCast S1x128 (W (Proc.devRef .tc main_arg13)) shapeCasts_S128_S1x128 := by
  after_results_simp; rfl

/-- A column of zeros. -/
abbrev zcol : (⟨S128x1, .f32⟩ : BufTy).Contents (Elt Ideal) :=
  broadcastInDim S128x1 ![] bcast_S_S128x1 (constant (F := Ideal) S_ .f32 0x00000000#32)
/-- A single zero as a 1×1 matrix. -/
abbrev zone : (⟨S1x1, .f32⟩ : BufTy).Contents (Elt Ideal) :=
  broadcastInDim S1x1 ![] bcast_S_S1x1 (constant (F := Ideal) S_ .f32 0x00000000#32)

set_option maxHeartbeats 4000000 in
/-- The mean head's second layer beside a column of zeros. -/
theorem s2_v56 : after hostOps2 W (Proc.devRef .tc main_v56)
    = concatenate S128x2 1 [⟨S128x1, W (Proc.devRef .tc main_arg10)⟩, ⟨S128x1, zcol⟩] concatenates_S128x1_S128x1_S128x2_d1 := by
  after_results_simp; inner_results; rfl
set_option maxHeartbeats 4000000 in
/-- A column of zeros beside the variance head's second layer. -/
theorem s2_v58 : after hostOps2 W (Proc.devRef .tc main_v58)
    = concatenate S128x2 1 [⟨S128x1, zcol⟩, ⟨S128x1, W (Proc.devRef .tc main_arg14)⟩] concatenates_S128x1_S128x1_S128x2_d1 := by
  after_results_simp; inner_results; rfl
set_option maxHeartbeats 4000000 in
theorem s2_v61 : after hostOps2 W (Proc.devRef .tc main_v61)
    = concatenate S1x2 1 [⟨S1x1, shapeCast S1x1 (W (Proc.devRef .tc main_arg11)) shapeCasts_S1_S1x1⟩, ⟨S1x1, zone⟩] concatenates_S1x1_S1x1_S1x2_d1 := by
  after_results_simp; inner_results; rfl
set_option maxHeartbeats 4000000 in
theorem s2_v63 : after hostOps2 W (Proc.devRef .tc main_v63)
    = concatenate S1x2 1 [⟨S1x1, zone⟩, ⟨S1x1, shapeCast S1x1 (W (Proc.devRef .tc main_arg15)) shapeCasts_S1_S1x1⟩] concatenates_S1x1_S1x1_S1x2_d1 := by
  after_results_simp; inner_results; rfl

/-! ## After the heads -/

theorem s3_v65 : after hostOps3 W (Proc.devRef .tc main_v65)
    = extractStridedSlice S800000x1 ![0, 0] (W (Proc.devRef .tc main_v64)) slices_S800000x2_S800000x1_0_0 := by
  after_results_simp
theorem s3_v66 : after hostOps3 W (Proc.devRef .tc main_v66)
    = extractStridedSlice S800000x1 ![0, 1] (W (Proc.devRef .tc main_v64)) slices_S800000x2_S800000x1_0_1 := by
  after_results_simp

end Cert.KernelIdeal.Stages

end
-- ==== Proof.RefSide.lean ====
/-
  The reference's stages read entry by entry at the ideal values, in the same words as the kernel's tiles.
  A reference layer is relu((agg·W_rel + b) + x·W_root): the bias is added before the root term where the kernel adds
  it after, and addition of extended reals is commutative and associative. A reference head is
  relu(c·W1 + b1)·w2 + b2 with w2 a single column.
-/
import proofs.«159588_j78761110274681_2_alg».proof.Proof.Gen.ReferenceIdeal.Read
import proofs.«159588_j78761110274681_2_alg».proof.Proof.Pay
import Idealize.ShloMosaic.Lib.ValueLayout

set_option maxRecDepth 16384

noncomputable section

namespace Cert.RefStages

open Cert.ReferenceIdeal Cert.ReferenceIdeal.Read Idealize.ShloMosaic Idealize.ShloMosaic.ValueIdx
open Cert.KernelIdeal (Tile.conv Tile.hid Tile.z32)

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal))

/-- The reference's first layer at (p, q). -/
theorem layer1 (B : (⟨2, ![1, 128]⟩ : Shape).Idx → EReal) (hB : ∀ q : Fin 128, B (ix2 (0 : Fin 1) q) = x3 (ix1 q))
    (p : Fin 50000) (q : Fin 128) :
    val_main_v20 (F := Ideal) x0 x1 x2 x3 x4 (ix2 p q)
      = Tile.conv (val_main_v13 (F := Ideal) x0 x1) x0 x2 x4 B p q := by
  rw [val_main_v20_apply, val_main_v19_apply, val_main_v17_apply, val_main_v14_apply, val_main_v16_apply,
    val_main_v15_apply, val_main_v18_apply, val_main_call0_v0_apply, val_main_call0_cst_apply]
  have el14 : ∀ k, lidx_main_v14 (ix2 p q) k = ix2 p k := fun k => funext fun a => by
    match a with | ⟨0, _⟩ => rfl | ⟨1, _⟩ => rfl
  have er14 : ∀ k, ridx_main_v14 (ix2 p q) k = ix2 k q := fun k => funext fun a => by
    match a with | ⟨0, _⟩ => rfl | ⟨1, _⟩ => rfl
  have el18 : ∀ k, lidx_main_v18 (ix2 p q) k = ix2 p k := fun k => funext fun a => by
    match a with | ⟨0, _⟩ => rfl | ⟨1, _⟩ => rfl
  have er18 : ∀ k, ridx_main_v18 (ix2 p q) k = ix2 k q := fun k => funext fun a => by
    match a with | ⟨0, _⟩ => rfl | ⟨1, _⟩ => rfl
  have eb : idx_main_v15 (idx_main_v16 (ix2 p q)) = ix1 q := funext fun a => by
    match a with | ⟨0, _⟩ => rfl
  simp only [el14, er14, el18, er18, eb]
  unfold Tile.conv
  rw [hB]
  show max (((_ : EReal) + _) + _) _ = max ((_ + _) + _) _
  rw [add_right_comm]
  rfl

/-- The reference's second layer at (p, q). -/
theorem layer2 (B : (⟨2, ![1, 128]⟩ : Shape).Idx → EReal) (hB : ∀ q : Fin 128, B (ix2 (0 : Fin 1) q) = x6 (ix1 q))
    (p : Fin 50000) (q : Fin 128) :
    val_main_v37 (F := Ideal) x0 x1 x2 x3 x4 x5 x6 x7 (ix2 p q)
      = Tile.conv (val_main_v30 (F := Ideal) x0 x1 x2 x3 x4) (val_main_v20 (F := Ideal) x0 x1 x2 x3 x4) x5 x7 B p q := by
  rw [val_main_v37_apply, val_main_v36_apply, val_main_v34_apply, val_main_v31_apply, val_main_v33_apply,
    val_main_v32_apply, val_main_v35_apply, val_main_call1_v0_apply, val_main_call1_cst_apply]
  have el31 : ∀ k, lidx_main_v31 (ix2 p q) k = ix2 p k := fun k => funext fun a => by
    match a with | ⟨0, _⟩ => rfl | ⟨1, _⟩ => rfl
  have er31 : ∀ k, ridx_main_v31 (ix2 p q) k = ix2 k q := fun k => funext fun a => by
    match a with | ⟨0, _⟩ => rfl | ⟨1, _⟩ => rfl
  have el35 : ∀ k, lidx_main_v35 (ix2 p q) k = ix2 p k := fun k => funext fun a => by
    match a with | ⟨0, _⟩ => rfl | ⟨1, _⟩ => rfl
  have er35 : ∀ k, ridx_main_v35 (ix2 p q) k = ix2 k q := fun k => funext fun a => by
    match a with | ⟨0, _⟩ => rfl | ⟨1, _⟩ => rfl
  have eb : idx_main_v32 (idx_main_v33 (ix2 p q)) = ix1 q := funext fun a => by
    match a with | ⟨0, _⟩ => rfl
  simp only [el31, er31, el35, er35, eb]
  unfold Tile.conv
  rw [hB]
  show max (((_ : EReal) + _) + _) _ = max ((_ + _) + _) _
  rw [add_right_comm]
  rfl

variable (x8 : (⟨S256x128, .f32⟩ : BufTy).Contents (Elt Ideal)) (x9 : (⟨S128, .f32⟩ : BufTy).Contents (Elt Ideal))
  (x10 : (⟨S128x1, .f32⟩ : BufTy).Contents (Elt Ideal)) (x11 : (⟨S1, .f32⟩ : BufTy).Contents (Elt Ideal))
  (x12 : (⟨S256x128, .f32⟩ : BufTy).Contents (Elt Ideal)) (x13 : (⟨S128, .f32⟩ : BufTy).Contents (Elt Ideal))
  (x14 : (⟨S128x1, .f32⟩ : BufTy).Contents (Elt Ideal)) (x15 : (⟨S1, .f32⟩ : BufTy).Contents (Elt Ideal))

/-- A hidden entry of the reference's mean head. -/
theorem hidden_mean (B : (⟨2, ![1, 128]⟩ : Shape).Idx → EReal) (hB : ∀ c : Fin 128, B (ix2 (0 : Fin 1) c) = x9 (ix1 c))
    (e : Fin 800000) (k : Fin 128) :
    val_main_v57 (F := Ideal) x0 x1 x2 x3 x4 x5 x6 x7 x8 x9 (ix2 e k)
      = Tile.hid (val_main_v52 (F := Ideal) x0 x1 x2 x3 x4 x5 x6 x7) x8 B e k := by
  rw [val_main_v57_apply, val_main_v56_apply, val_main_v53_apply, val_main_v55_apply, val_main_v54_apply,
    val_main_call2_v0_apply, val_main_call2_cst_apply]
  have el53 : ∀ d : Fin 256, lidx_main_v53 (ix2 e k) d = ix2 e d := fun d => funext fun a => by
    match a with | ⟨0, _⟩ => rfl | ⟨1, _⟩ => rfl
  have er53 : ∀ d : Fin 256, ridx_main_v53 (ix2 e k) d = ix2 d k := fun d => funext fun a => by
    match a with | ⟨0, _⟩ => rfl | ⟨1, _⟩ => rfl
  have eb54 : idx_main_v54 (idx_main_v55 (ix2 e k)) = ix1 k := funext fun a => by
    match a with | ⟨0, _⟩ => rfl
  unfold Tile.hid
  rw [hB, eb54, Finset.sum_congr rfl fun d _ => by rw [el53 d, er53 d]]
  rfl

/-- The reference's mean head at edge e. -/
theorem mean (B : (⟨2, ![1, 128]⟩ : Shape).Idx → EReal) (hB : ∀ c : Fin 128, B (ix2 (0 : Fin 1) c) = x9 (ix1 c))
    (e : Fin 800000) :
    val_main_v61 (F := Ideal) x0 x1 x2 x3 x4 x5 x6 x7 x8 x9 x10 x11 (ix2 e (0 : Fin 1))
      = (∑ c : Fin 128, Tile.hid (val_main_v52 (F := Ideal) x0 x1 x2 x3 x4 x5 x6 x7) x8 B e c * x10 (ix2 c (0 : Fin 1)))
          + x11 (ix1 (0 : Fin 1)) := by
  rw [val_main_v61_apply, val_main_v58_apply, val_main_v60_apply, val_main_v59_apply]
  have el58 : ∀ k, lidx_main_v58 (ix2 e (0 : Fin 1)) k = ix2 e k := fun k => funext fun a => by
    match a with | ⟨0, _⟩ => rfl | ⟨1, _⟩ => rfl
  have er58 : ∀ k, ridx_main_v58 (ix2 e (0 : Fin 1)) k = ix2 k (0 : Fin 1) := fun k => funext fun a => by
    match a with | ⟨0, _⟩ => rfl | ⟨1, _⟩ => rfl
  have eb59 : idx_main_v59 (idx_main_v60 (ix2 e (0 : Fin 1))) = ix1 (0 : Fin 1) := funext fun a => by
    match a with | ⟨0, _⟩ => rfl
  rw [eb59, Finset.sum_congr rfl fun k _ => by rw [el58 k, er58 k, hidden_mean x0 x1 x2 x3 x4 x5 x6 x7 x8 x9 B hB e k]]
  rfl

/-- A hidden entry of the reference's variance head. -/
theorem hidden_var (B : (⟨2, ![1, 128]⟩ : Shape).Idx → EReal) (hB : ∀ c : Fin 128, B (ix2 (0 : Fin 1) c) = x13 (ix1 c))
    (e : Fin 800000) (k : Fin 128) :
    val_main_v66 (F := Ideal) x0 x1 x2 x3 x4 x5 x6 x7 x12 x13 (ix2 e k)
      = Tile.hid (val_main_v52 (F := Ideal) x0 x1 x2 x3 x4 x5 x6 x7) x12 B e k := by
  rw [val_main_v66_apply, val_main_v65_apply, val_main_v62_apply, val_main_v64_apply, val_main_v63_apply,
    val_main_call3_v0_apply, val_main_call3_cst_apply]
  have el62 : ∀ d : Fin 256, lidx_main_v62 (ix2 e k) d = ix2 e d := fun d => funext fun a => by
    match a with | ⟨0, _⟩ => rfl | ⟨1, _⟩ => rfl
  have er62 : ∀ d : Fin 256, ridx_main_v62 (ix2 e k) d = ix2 d k := fun d => funext fun a => by
    match a with | ⟨0, _⟩ => rfl | ⟨1, _⟩ => rfl
  have eb63 : idx_main_v63 (idx_main_v64 (ix2 e k)) = ix1 k := funext fun a => by
    match a with | ⟨0, _⟩ => rfl
  unfold Tile.hid
  rw [hB, eb63, Finset.sum_congr rfl fun d _ => by rw [el62 d, er62 d]]
  rfl

/-- The reference's variance head at edge e. -/
theorem var (B : (⟨2, ![1, 128]⟩ : Shape).Idx → EReal) (hB : ∀ c : Fin 128, B (ix2 (0 : Fin 1) c) = x13 (ix1 c))
    (e : Fin 800000) :
    val_main_v73 (F := Ideal) x0 x1 x2 x3 x4 x5 x6 x7 x12 x13 x14 x15 (ix2 e (0 : Fin 1))
      = Ideal.exp (Ideal.ofBits .f32 0x3F000000#32 *
          ((∑ c : Fin 128, Tile.hid (val_main_v52 (F := Ideal) x0 x1 x2 x3 x4 x5 x6 x7) x12 B e c * x14 (ix2 c (0 : Fin 1)))
            + x15 (ix1 (0 : Fin 1)))) := by
  rw [val_main_v73_apply, val_main_v72_apply, val_main_v71_apply, val_main_cst_8_apply, val_main_v70_apply,
    val_main_v67_apply, val_main_v69_apply, val_main_v68_apply]
  have el67 : ∀ k, lidx_main_v67 (ix2 e (0 : Fin 1)) k = ix2 e k := fun k => funext fun a => by
    match a with | ⟨0, _⟩ => rfl | ⟨1, _⟩ => rfl
  have er67 : ∀ k, ridx_main_v67 (ix2 e (0 : Fin 1)) k = ix2 k (0 : Fin 1) := fun k => funext fun a => by
    match a with | ⟨0, _⟩ => rfl | ⟨1, _⟩ => rfl
  have eb68 : idx_main_v68 (idx_main_v69 (ix2 e (0 : Fin 1))) = ix1 (0 : Fin 1) := funext fun a => by
    match a with | ⟨0, _⟩ => rfl
  rw [eb68, Finset.sum_congr rfl fun k _ => by rw [el67 k, er67 k, hidden_var x0 x1 x2 x3 x4 x5 x6 x7 x12 x13 B hB e k]]
  simp only [Ideal.hostUnary_exp_def, Ideal.mulf_def, Ideal.addf_def, Ideal.ofBits_def]

end Cert.RefStages

end
-- ==== Proof.Cols.lean ====
/-
  The heads' wide second layers, column by column. The mean head's weights sit in column 0 beside a column of zeros and
  the variance head's in column 1 beside a column of zeros, and so do the two bias rows. On the extended reals a product
  with zero is zero, a sum of zeros is zero and adding zero changes nothing, so column 0 of the sum of the two wide layers
  is the mean head alone and column 1 the variance head alone.
-/
import proofs.«159588_j78761110274681_2_alg».proof.Proof.Pay
import proofs.«159588_j78761110274681_2_alg».proof.Proof.LibDense

noncomputable section

namespace Cert.KernelIdeal.Tile

open Idealize.ShloMosaic Idealize.ShloMosaic.ValueIdx

section Wide
variable {a k n : ℕ} (C : (⟨2, ![a, k]⟩ : Shape).Idx → EReal)
    (Wm1 : (⟨2, ![k, n]⟩ : Shape).Idx → EReal) (Bm1 : (⟨2, ![1, n]⟩ : Shape).Idx → EReal)
    (Wm2 : (⟨2, ![n, 2]⟩ : Shape).Idx → EReal) (Bm2 : (⟨2, ![1, 2]⟩ : Shape).Idx → EReal)
    (Wv1 : (⟨2, ![k, n]⟩ : Shape).Idx → EReal) (Bv1 : (⟨2, ![1, n]⟩ : Shape).Idx → EReal)
    (Wv2 : (⟨2, ![n, 2]⟩ : Shape).Idx → EReal) (Bv2 : (⟨2, ![1, 2]⟩ : Shape).Idx → EReal)
    (w : Fin n → EReal) (b : EReal) (p : Fin a)

/-- Column 0 of the sum of wide layers is the mean head. -/
theorem wide_col0 (hWm2 : ∀ c, Wm2 (ix2 c (0 : Fin 2)) = w c) (hBm2 : Bm2 (ix2 (0 : Fin 1) (0 : Fin 2)) = b)
    (hWv2 : ∀ c, Wv2 (ix2 c (0 : Fin 2)) = 0) (hBv2 : Bv2 (ix2 (0 : Fin 1) (0 : Fin 2)) = 0) :
    wide C Wm1 Bm1 Wm2 Bm2 Wv1 Bv1 Wv2 Bv2 p (0 : Fin 2) = (∑ c : Fin n, hid C Wm1 Bm1 p c * w c) + b := by
  unfold wide
  simp only [hWm2, hBm2, hWv2, hBv2, mul_zero, Finset.sum_const_zero, add_zero]

/-- Column 1 of the sum of wide layers is the variance head. -/
theorem wide_col1 (hWm2 : ∀ c, Wm2 (ix2 c (1 : Fin 2)) = 0) (hBm2 : Bm2 (ix2 (0 : Fin 1) (1 : Fin 2)) = 0)
    (hWv2 : ∀ c, Wv2 (ix2 c (1 : Fin 2)) = w c) (hBv2 : Bv2 (ix2 (0 : Fin 1) (1 : Fin 2)) = b) :
    wide C Wm1 Bm1 Wm2 Bm2 Wv1 Bv1 Wv2 Bv2 p (1 : Fin 2) = (∑ c : Fin n, hid C Wm1 Bm1 p c * 0) + 0 + ((∑ c : Fin n, hid C Wv1 Bv1 p c * w c) + b) := by
  unfold wide
  simp only [hWm2, hBm2, hWv2, hBv2]

/-- The same with the zeros gone. -/
theorem wide_col1' (hWm2 : ∀ c, Wm2 (ix2 c (1 : Fin 2)) = 0) (hBm2 : Bm2 (ix2 (0 : Fin 1) (1 : Fin 2)) = 0)
    (hWv2 : ∀ c, Wv2 (ix2 c (1 : Fin 2)) = w c) (hBv2 : Bv2 (ix2 (0 : Fin 1) (1 : Fin 2)) = b) :
    wide C Wm1 Bm1 Wm2 Bm2 Wv1 Bv1 Wv2 Bv2 p (1 : Fin 2) = (∑ c : Fin n, hid C Wv1 Bv1 p c * w c) + b := by
  rw [wide_col1 C Wm1 Bm1 Wm2 Bm2 Wv1 Bv1 Wv2 Bv2 w b p hWm2 hBm2 hWv2 hBv2]
  simp only [mul_zero, Finset.sum_const_zero, add_zero, zero_add]

end Wide

section Joins
variable {n : ℕ} (x z : (⟨2, ![n, 1]⟩ : Shape).Idx → EReal)
    (h : Shape.Concatenates [(⟨2, ![n, 1]⟩ : Shape), ⟨2, ![n, 1]⟩] ⟨2, ![n, 2]⟩ 1) (e : Fin n)

/-- Two columns side by side: column 0 is the first. -/
theorem join_col0 : concatenate ⟨2, ![n, 2]⟩ 1 [⟨⟨2, ![n, 1]⟩, x⟩, ⟨⟨2, ![n, 1]⟩, z⟩] h (ix2 e (0 : Fin 2)) = x (ix2 e (0 : Fin 1)) :=
  Cert.Dense.concatCols2_left x z h e (0 : Fin 1) (by decide)

/-- Two columns side by side: column 1 is the second. -/
theorem join_col1 : concatenate ⟨2, ![n, 2]⟩ 1 [⟨⟨2, ![n, 1]⟩, x⟩, ⟨⟨2, ![n, 1]⟩, z⟩] h (ix2 e (1 : Fin 2)) = z (ix2 e (0 : Fin 1)) :=
  Cert.Dense.concatCols2_right x z h e (0 : Fin 1) (by decide)

end Joins

/-- A zero repeated over a whole array reads zero everywhere. -/
theorem zeros_apply {s : Shape} (hb : (⟨0, ![]⟩ : Shape).BroadcastsInDim s ![]) (i : s.Idx) :
    broadcastInDim s ![] hb (constant (F := Ideal) ⟨0, ![]⟩ .f32 0x00000000#32) i = 0 := by
  rw [Cert.Dense.bcastScalar_apply, constant_apply, Ideal.ofBits_zero_f32]

end Cert.KernelIdeal.Tile

end
-- ==== Proof.Chain.lean ====
/-
  The idealized kernel's buffers at each boundary of its run, read as the reference's stages of the launch arrays.
  Stretch by stretch and region by region: the first aggregation is the reference's; the first region turns it into the
  reference's first layer; the second aggregation and the second region repeat this on that layer; the edge features are
  the reference's; and the heads region's two output columns are the reference's mean and variance heads, the zero columns
  and zero bias entries of the wide second layers contributing nothing.
-/
import proofs.«159588_j78761110274681_2_alg».proof.Proof.Gen.KernelIdeal.Frame
import proofs.«159588_j78761110274681_2_alg».proof.Proof.Conv0
import proofs.«159588_j78761110274681_2_alg».proof.Proof.Conv1
import proofs.«159588_j78761110274681_2_alg».proof.Proof.Heads
import proofs.«159588_j78761110274681_2_alg».proof.Proof.Stages
import proofs.«159588_j78761110274681_2_alg».proof.Proof.RefSide
import proofs.«159588_j78761110274681_2_alg».proof.Proof.Cols
import Idealize.ShloMosaic.Lib.ValueLayout

set_option maxRecDepth 16384

noncomputable section

namespace Cert.KernelIdeal.Chain

open Cert.KernelIdeal Cert.KernelIdeal.Gen Idealize.ShloMosaic Idealize.ShloMosaic.TcCoe Idealize.SL.Sem Idealize.ShloMosaic.ValueIdx
open Cert.ReferenceIdeal.Read (val_main_v1 val_main_v3 val_main_v13 val_main_v20 val_main_v30 val_main_v37 val_main_v52 val_main_v61 val_main_v73)

variable (m : (ℓ : Loc nD τ sig) → Buf (Elt Ideal) ℓ) (ρ : Dev nD → PrngReg) (c : Dev nD)

/-! ## At the first region's entry -/

theorem w1_v15 : W1 m ρ c (Proc.devRef .tc main_v15) = val_main_v13 (F := Ideal) (m ((c : Thread nD τ).loc main_arg0)) (m ((c : Thread nD τ).loc main_arg1)) := Stages.s0_v15 (W0 m ρ c)
theorem w1_v16 : W1 m ρ c (Proc.devRef .tc main_v16) = (m ((c : Thread nD τ).loc main_arg2)) := Stages.s0_v16 (W0 m ρ c)
theorem w1_v17 : W1 m ρ c (Proc.devRef .tc main_v17) = (m ((c : Thread nD τ).loc main_arg4)) := Stages.s0_v17 (W0 m ρ c)
theorem w1_v18 : W1 m ρ c (Proc.devRef .tc main_v18) = shapeCast S1x128 (m ((c : Thread nD τ).loc main_arg3)) shapeCasts_S128_S1x128 := Stages.s0_v18 (W0 m ρ c)
theorem w1_arg0 : W1 m ρ c (Proc.devRef .tc main_arg0) = (m ((c : Thread nD τ).loc main_arg0)) := Stages.s0_arg0 (W0 m ρ c)
theorem w1_v1 : W1 m ρ c (Proc.devRef .tc main_v1) = val_main_v1 (F := Ideal) (m ((c : Thread nD τ).loc main_arg1)) := Stages.s0_v1 (W0 m ρ c)
theorem w1_v3 : W1 m ρ c (Proc.devRef .tc main_v3) = val_main_v3 (F := Ideal) (m ((c : Thread nD τ).loc main_arg1)) := Stages.s0_v3 (W0 m ρ c)
theorem w1_arg5 : W1 m ρ c (Proc.devRef .tc main_arg5) = (m ((c : Thread nD τ).loc main_arg5)) := Stages.s0_arg5 (W0 m ρ c)
theorem w1_arg6 : W1 m ρ c (Proc.devRef .tc main_arg6) = (m ((c : Thread nD τ).loc main_arg6)) := Stages.s0_arg6 (W0 m ρ c)
theorem w1_arg7 : W1 m ρ c (Proc.devRef .tc main_arg7) = (m ((c : Thread nD τ).loc main_arg7)) := Stages.s0_arg7 (W0 m ρ c)
theorem w1_arg8 : W1 m ρ c (Proc.devRef .tc main_arg8) = (m ((c : Thread nD τ).loc main_arg8)) := Stages.s0_arg8 (W0 m ρ c)
theorem w1_arg9 : W1 m ρ c (Proc.devRef .tc main_arg9) = (m ((c : Thread nD τ).loc main_arg9)) := Stages.s0_arg9 (W0 m ρ c)
theorem w1_arg10 : W1 m ρ c (Proc.devRef .tc main_arg10) = (m ((c : Thread nD τ).loc main_arg10)) := Stages.s0_arg10 (W0 m ρ c)
theorem w1_arg11 : W1 m ρ c (Proc.devRef .tc main_arg11) = (m ((c : Thread nD τ).loc main_arg11)) := Stages.s0_arg11 (W0 m ρ c)
theorem w1_arg12 : W1 m ρ c (Proc.devRef .tc main_arg12) = (m ((c : Thread nD τ).loc main_arg12)) := Stages.s0_arg12 (W0 m ρ c)
theorem w1_arg13 : W1 m ρ c (Proc.devRef .tc main_arg13) = (m ((c : Thread nD τ).loc main_arg13)) := Stages.s0_arg13 (W0 m ρ c)
theorem w1_arg14 : W1 m ρ c (Proc.devRef .tc main_arg14) = (m ((c : Thread nD τ).loc main_arg14)) := Stages.s0_arg14 (W0 m ρ c)
theorem w1_arg15 : W1 m ρ c (Proc.devRef .tc main_arg15) = (m ((c : Thread nD τ).loc main_arg15)) := Stages.s0_arg15 (W0 m ρ c)

/-! ## After the first region -/

/-- The first region's output is the reference's first layer. -/
theorem w2_v19 : W2 m ρ c (Proc.devRef .tc main_v19) = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((W2_arr m ρ c 5).trans (Conv0.final (V1 m ρ) c)).trans ?_
  have e15 : V1 m ρ c main_v15 = val_main_v13 (F := Ideal) (m ((c : Thread nD τ).loc main_arg0)) (m ((c : Thread nD τ).loc main_arg1)) := w1_v15 m ρ c
  have e0 : V1 m ρ c main_arg0 = (m ((c : Thread nD τ).loc main_arg0)) := w1_arg0 m ρ c
  have e16 : V1 m ρ c main_v16 = (m ((c : Thread nD τ).loc main_arg2)) := w1_v16 m ρ c
  have e17 : V1 m ρ c main_v17 = (m ((c : Thread nD τ).loc main_arg4)) := w1_v17 m ρ c
  have e18 : V1 m ρ c main_v18 = shapeCast S1x128 (m ((c : Thread nD τ).loc main_arg3)) shapeCasts_S128_S1x128 := w1_v18 m ρ c
  rw [e15, e0, e16, e17, e18]
  funext i
  obtain ⟨p, q, rfl⟩ : ∃ (p : Fin 50000) (q : Fin 128), i = ix2 p q := ⟨i 0, i 1, eq_ix2 i⟩
  exact (Cert.RefStages.layer1 (m ((c : Thread nD τ).loc main_arg0)) (m ((c : Thread nD τ).loc main_arg1)) (m ((c : Thread nD τ).loc main_arg2)) (m ((c : Thread nD τ).loc main_arg3)) (m ((c : Thread nD τ).loc main_arg4)) _ (fun q => shapeCast_a_1a_apply (m ((c : Thread nD τ).loc main_arg3)) shapeCasts_S128_S1x128 (0 : Fin 1) q) p q).symm

theorem w2_v1 : W2 m ρ c (Proc.devRef .tc main_v1) = val_main_v1 (F := Ideal) (m ((c : Thread nD τ).loc main_arg1)) := (W2_of_ne m ρ c main_v1 (by decide)).trans (w1_v1 m ρ c)
theorem w2_v3 : W2 m ρ c (Proc.devRef .tc main_v3) = val_main_v3 (F := Ideal) (m ((c : Thread nD τ).loc main_arg1)) := (W2_of_ne m ρ c main_v3 (by decide)).trans (w1_v3 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)
theorem w2_arg8 : W2 m ρ c (Proc.devRef .tc main_arg8) = (m ((c : Thread nD τ).loc main_arg8)) := (W2_of_ne m ρ c main_arg8 (by decide)).trans (w1_arg8 m ρ c)
theorem w2_arg9 : W2 m ρ c (Proc.devRef .tc main_arg9) = (m ((c : Thread nD τ).loc main_arg9)) := (W2_of_ne m ρ c main_arg9 (by decide)).trans (w1_arg9 m ρ c)
theorem w2_arg10 : W2 m ρ c (Proc.devRef .tc main_arg10) = (m ((c : Thread nD τ).loc main_arg10)) := (W2_of_ne m ρ c main_arg10 (by decide)).trans (w1_arg10 m ρ c)
theorem w2_arg11 : W2 m ρ c (Proc.devRef .tc main_arg11) = (m ((c : Thread nD τ).loc main_arg11)) := (W2_of_ne m ρ c main_arg11 (by decide)).trans (w1_arg11 m ρ c)
theorem w2_arg12 : W2 m ρ c (Proc.devRef .tc main_arg12) = (m ((c : Thread nD τ).loc main_arg12)) := (W2_of_ne m ρ c main_arg12 (by decide)).trans (w1_arg12 m ρ c)
theorem w2_arg13 : W2 m ρ c (Proc.devRef .tc main_arg13) = (m ((c : Thread nD τ).loc main_arg13)) := (W2_of_ne m ρ c main_arg13 (by decide)).trans (w1_arg13 m ρ c)
theorem w2_arg14 : W2 m ρ c (Proc.devRef .tc main_arg14) = (m ((c : Thread nD τ).loc main_arg14)) := (W2_of_ne m ρ c main_arg14 (by decide)).trans (w1_arg14 m ρ c)
theorem w2_arg15 : W2 m ρ c (Proc.devRef .tc main_arg15) = (m ((c : Thread nD τ).loc main_arg15)) := (W2_of_ne m ρ c main_arg15 (by decide)).trans (w1_arg15 m ρ c)

/-! ## At the second region's entry -/

theorem w3_v30 : W3 m ρ c (Proc.devRef .tc main_v30) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  Stages.s1_v30 (W2 m ρ c) (m ((c : Thread nD τ).loc main_arg0)) (m ((c : Thread nD τ).loc main_arg1)) (m ((c : Thread nD τ).loc main_arg2)) (m ((c : Thread nD τ).loc main_arg3)) (m ((c : Thread nD τ).loc main_arg4)) (w2_v1 m ρ c) (w2_v3 m ρ c) (w2_v19 m ρ c)
theorem w3_v19 : W3 m ρ c (Proc.devRef .tc main_v19) = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := (Stages.s1_v19 (W2 m ρ c)).trans (w2_v19 m ρ c)
theorem w3_v31 : W3 m ρ c (Proc.devRef .tc main_v31) = (m ((c : Thread nD τ).loc main_arg5)) := (Stages.s1_v31 (W2 m ρ c)).trans (w2_arg5 m ρ c)
theorem w3_v32 : W3 m ρ c (Proc.devRef .tc main_v32) = (m ((c : Thread nD τ).loc main_arg7)) := (Stages.s1_v32 (W2 m ρ c)).trans (w2_arg7 m ρ c)
theorem w3_v33 : W3 m ρ c (Proc.devRef .tc main_v33) = shapeCast S1x128 (m ((c : Thread nD τ).loc main_arg6)) shapeCasts_S128_S1x128 :=
  (Stages.s1_v33 (W2 m ρ c)).trans (congrArg (fun v : (⟨S128, .f32⟩ : BufTy).Contents (Elt Ideal) => shapeCast S1x128 v shapeCasts_S128_S1x128) (w2_arg6 m ρ c))
theorem w3_v1 : W3 m ρ c (Proc.devRef .tc main_v1) = val_main_v1 (F := Ideal) (m ((c : Thread nD τ).loc main_arg1)) := (Stages.s1_v1 (W2 m ρ c)).trans (w2_v1 m ρ c)
theorem w3_v3 : W3 m ρ c (Proc.devRef .tc main_v3) = val_main_v3 (F := Ideal) (m ((c : Thread nD τ).loc main_arg1)) := (Stages.s1_v3 (W2 m ρ c)).trans (w2_v3 m ρ c)
theorem w3_arg8 : W3 m ρ c (Proc.devRef .tc main_arg8) = (m ((c : Thread nD τ).loc main_arg8)) := (Stages.s1_arg8 (W2 m ρ c)).trans (w2_arg8 m ρ c)
theorem w3_arg9 : W3 m ρ c (Proc.devRef .tc main_arg9) = (m ((c : Thread nD τ).loc main_arg9)) := (Stages.s1_arg9 (W2 m ρ c)).trans (w2_arg9 m ρ c)
theorem w3_arg10 : W3 m ρ c (Proc.devRef .tc main_arg10) = (m ((c : Thread nD τ).loc main_arg10)) := (Stages.s1_arg10 (W2 m ρ c)).trans (w2_arg10 m ρ c)
theorem w3_arg11 : W3 m ρ c (Proc.devRef .tc main_arg11) = (m ((c : Thread nD τ).loc main_arg11)) := (Stages.s1_arg11 (W2 m ρ c)).trans (w2_arg11 m ρ c)
theorem w3_arg12 : W3 m ρ c (Proc.devRef .tc main_arg12) = (m ((c : Thread nD τ).loc main_arg12)) := (Stages.s1_arg12 (W2 m ρ c)).trans (w2_arg12 m ρ c)
theorem w3_arg13 : W3 m ρ c (Proc.devRef .tc main_arg13) = (m ((c : Thread nD τ).loc main_arg13)) := (Stages.s1_arg13 (W2 m ρ c)).trans (w2_arg13 m ρ c)
theorem w3_arg14 : W3 m ρ c (Proc.devRef .tc main_arg14) = (m ((c : Thread nD τ).loc main_arg14)) := (Stages.s1_arg14 (W2 m ρ c)).trans (w2_arg14 m ρ c)
theorem w3_arg15 : W3 m ρ c (Proc.devRef .tc main_arg15) = (m ((c : Thread nD τ).loc main_arg15)) := (Stages.s1_arg15 (W2 m ρ c)).trans (w2_arg15 m ρ c)

/-! ## After the second region -/

/-- The second region's output is the reference's second layer. -/
theorem w4_v34 : W4 m ρ c (Proc.devRef .tc main_v34) = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W4_arr m ρ c 5).trans (Conv1.final (V3 m ρ) c)).trans ?_
  have e30 : V3 m ρ c main_v30 = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := w3_v30 m ρ c
  have e19 : V3 m ρ c main_v19 = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := w3_v19 m ρ c
  have e31 : V3 m ρ c main_v31 = (m ((c : Thread nD τ).loc main_arg5)) := w3_v31 m ρ c
  have e32 : V3 m ρ c main_v32 = (m ((c : Thread nD τ).loc main_arg7)) := w3_v32 m ρ c
  have e33 : V3 m ρ c main_v33 = shapeCast S1x128 (m ((c : Thread nD τ).loc main_arg6)) shapeCasts_S128_S1x128 := w3_v33 m ρ c
  rw [e30, e19, e31, e32, e33]
  funext i
  obtain ⟨p, q, rfl⟩ : ∃ (p : Fin 50000) (q : Fin 128), i = ix2 p q := ⟨i 0, i 1, eq_ix2 i⟩
  exact (Cert.RefStages.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ (fun q => shapeCast_a_1a_apply (m ((c : Thread nD τ).loc main_arg6)) shapeCasts_S128_S1x128 (0 : Fin 1) q) p q).symm

theorem w4_v1 : W4 m ρ c (Proc.devRef .tc main_v1) = val_main_v1 (F := Ideal) (m ((c : Thread nD τ).loc main_arg1)) := (W4_of_ne m ρ c main_v1 (by decide)).trans (w3_v1 m ρ c)
theorem w4_v3 : W4 m ρ c (Proc.devRef .tc main_v3) = val_main_v3 (F := Ideal) (m ((c : Thread nD τ).loc main_arg1)) := (W4_of_ne m ρ c main_v3 (by decide)).trans (w3_v3 m ρ c)
theorem w4_arg8 : W4 m ρ c (Proc.devRef .tc main_arg8) = (m ((c : Thread nD τ).loc main_arg8)) := (W4_of_ne m ρ c main_arg8 (by decide)).trans (w3_arg8 m ρ c)
theorem w4_arg9 : W4 m ρ c (Proc.devRef .tc main_arg9) = (m ((c : Thread nD τ).loc main_arg9)) := (W4_of_ne m ρ c main_arg9 (by decide)).trans (w3_arg9 m ρ c)
theorem w4_arg10 : W4 m ρ c (Proc.devRef .tc main_arg10) = (m ((c : Thread nD τ).loc main_arg10)) := (W4_of_ne m ρ c main_arg10 (by decide)).trans (w3_arg10 m ρ c)
theorem w4_arg11 : W4 m ρ c (Proc.devRef .tc main_arg11) = (m ((c : Thread nD τ).loc main_arg11)) := (W4_of_ne m ρ c main_arg11 (by decide)).trans (w3_arg11 m ρ c)
theorem w4_arg12 : W4 m ρ c (Proc.devRef .tc main_arg12) = (m ((c : Thread nD τ).loc main_arg12)) := (W4_of_ne m ρ c main_arg12 (by decide)).trans (w3_arg12 m ρ c)
theorem w4_arg13 : W4 m ρ c (Proc.devRef .tc main_arg13) = (m ((c : Thread nD τ).loc main_arg13)) := (W4_of_ne m ρ c main_arg13 (by decide)).trans (w3_arg13 m ρ c)
theorem w4_arg14 : W4 m ρ c (Proc.devRef .tc main_arg14) = (m ((c : Thread nD τ).loc main_arg14)) := (W4_of_ne m ρ c main_arg14 (by decide)).trans (w3_arg14 m ρ c)
theorem w4_arg15 : W4 m ρ c (Proc.devRef .tc main_arg15) = (m ((c : Thread nD τ).loc main_arg15)) := (W4_of_ne m ρ c main_arg15 (by decide)).trans (w3_arg15 m ρ c)

/-! ## At the heads region's entry -/

theorem w5_v49 : W5 m ρ c (Proc.devRef .tc main_v49) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Stages.s2_v49 (W4 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (w4_v1 m ρ c) (w4_v3 m ρ c) (w4_v34 m ρ c)
theorem w5_v50 : W5 m ρ c (Proc.devRef .tc main_v50) = (m ((c : Thread nD τ).loc main_arg8)) := (Stages.s2_v50 (W4 m ρ c)).trans (w4_arg8 m ρ c)
theorem w5_v51 : W5 m ρ c (Proc.devRef .tc main_v51) = (m ((c : Thread nD τ).loc main_arg12)) := (Stages.s2_v51 (W4 m ρ c)).trans (w4_arg12 m ρ c)
theorem w5_v52 : W5 m ρ c (Proc.devRef .tc main_v52) = shapeCast S1x128 (m ((c : Thread nD τ).loc main_arg9)) shapeCasts_S128_S1x128 :=
  (Stages.s2_v52 (W4 m ρ c)).trans (congrArg (fun v : (⟨S128, .f32⟩ : BufTy).Contents (Elt Ideal) => shapeCast S1x128 v shapeCasts_S128_S1x128) (w4_arg9 m ρ c))
theorem w5_v53 : W5 m ρ c (Proc.devRef .tc main_v53) = shapeCast S1x128 (m ((c : Thread nD τ).loc main_arg13)) shapeCasts_S128_S1x128 :=
  (Stages.s2_v53 (W4 m ρ c)).trans (congrArg (fun v : (⟨S128, .f32⟩ : BufTy).Contents (Elt Ideal) => shapeCast S1x128 v shapeCasts_S128_S1x128) (w4_arg13 m ρ c))
theorem w5_v56 : W5 m ρ c (Proc.devRef .tc main_v56)
    = concatenate S128x2 1 [⟨S128x1, (m ((c : Thread nD τ).loc main_arg10))⟩, ⟨S128x1, Stages.zcol⟩] concatenates_S128x1_S128x1_S128x2_d1 :=
  (Stages.s2_v56 (W4 m ρ c)).trans (congrArg (fun v : (⟨S128x1, .f32⟩ : BufTy).Contents (Elt Ideal) => concatenate S128x2 1 [⟨S128x1, v⟩, ⟨S128x1, Stages.zcol⟩] concatenates_S128x1_S128x1_S128x2_d1) (w4_arg10 m ρ c))
theorem w5_v58 : W5 m ρ c (Proc.devRef .tc main_v58)
    = concatenate S128x2 1 [⟨S128x1, Stages.zcol⟩, ⟨S128x1, (m ((c : Thread nD τ).loc main_arg14))⟩] concatenates_S128x1_S128x1_S128x2_d1 :=
  (Stages.s2_v58 (W4 m ρ c)).trans (congrArg (fun v : (⟨S128x1, .f32⟩ : BufTy).Contents (Elt Ideal) => concatenate S128x2 1 [⟨S128x1, Stages.zcol⟩, ⟨S128x1, v⟩] concatenates_S128x1_S128x1_S128x2_d1) (w4_arg14 m ρ c))
theorem w5_v61 : W5 m ρ c (Proc.devRef .tc main_v61)
    = concatenate S1x2 1 [⟨S1x1, shapeCast S1x1 (m ((c : Thread nD τ).loc main_arg11)) shapeCasts_S1_S1x1⟩, ⟨S1x1, Stages.zone⟩] concatenates_S1x1_S1x1_S1x2_d1 :=
  (Stages.s2_v61 (W4 m ρ c)).trans (congrArg (fun v : (⟨S1, .f32⟩ : BufTy).Contents (Elt Ideal) => concatenate S1x2 1 [⟨S1x1, shapeCast S1x1 v shapeCasts_S1_S1x1⟩, ⟨S1x1, Stages.zone⟩] concatenates_S1x1_S1x1_S1x2_d1) (w4_arg11 m ρ c))
theorem w5_v63 : W5 m ρ c (Proc.devRef .tc main_v63)
    = concatenate S1x2 1 [⟨S1x1, Stages.zone⟩, ⟨S1x1, shapeCast S1x1 (m ((c : Thread nD τ).loc main_arg15)) shapeCasts_S1_S1x1⟩] concatenates_S1x1_S1x1_S1x2_d1 :=
  (Stages.s2_v63 (W4 m ρ c)).trans (congrArg (fun v : (⟨S1, .f32⟩ : BufTy).Contents (Elt Ideal) => concatenate S1x2 1 [⟨S1x1, Stages.zone⟩, ⟨S1x1, shapeCast S1x1 v shapeCasts_S1_S1x1⟩] concatenates_S1x1_S1x1_S1x2_d1) (w4_arg15 m ρ c))

/-! ## After the heads region, and the two results -/

/-- The heads region's output. -/
theorem w6_v64 : W6 m ρ c (Proc.devRef .tc main_v64)
    = Heads.G (V5 m ρ c main_v49) (V5 m ρ c main_v50) (V5 m ρ c main_v52) (V5 m ρ c main_v56) (V5 m ρ c main_v61)
        (V5 m ρ c main_v51) (V5 m ρ c main_v53) (V5 m ρ c main_v58) (V5 m ρ c main_v63) :=
  (W6_arr m ρ c 9).trans (Heads.final (V5 m ρ) c)

/-- The first result is the reference's mean head. -/
theorem out0 : W7 m ρ c (Proc.devRef .tc main_v65) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (Stages.s3_v65 (W6 m ρ c)).trans ?_
  funext i
  obtain ⟨e, u, rfl⟩ : ∃ (e : Fin 800000) (u : Fin 1), i = ix2 e u := ⟨i 0, i 1, eq_ix2 i⟩
  obtain rfl : u = 0 := Subsingleton.elim _ _
  rw [slice2_axis1_apply 0 (W6 m ρ c (Proc.devRef .tc main_v64)) slices_S800000x2_S800000x1_0_0 e (0 : Fin 1) (0 : Fin 2) rfl, w6_v64]
  show Tile.sel 0 (Tile.wide (V5 m ρ c main_v49) (V5 m ρ c main_v50) (V5 m ρ c main_v52) (V5 m ρ c main_v56) (V5 m ρ c main_v61)
        (V5 m ρ c main_v51) (V5 m ρ c main_v53) (V5 m ρ c main_v58) (V5 m ρ c main_v63) e (0 : Fin 2)) = _
  rw [show ∀ r : EReal, Tile.sel 0 r = r from fun r => if_pos rfl]
  rw [Tile.wide_col0 (V5 m ρ c main_v49) (V5 m ρ c main_v50) (V5 m ρ c main_v52) (V5 m ρ c main_v56) (V5 m ρ c main_v61)
        (V5 m ρ c main_v51) (V5 m ρ c main_v53) (V5 m ρ c main_v58) (V5 m ρ c main_v63)
        (fun k => (m ((c : Thread nD τ).loc main_arg10)) (ix2 k (0 : Fin 1))) ((m ((c : Thread nD τ).loc main_arg11)) (ix1 (0 : Fin 1))) e
        (fun k => by
          show W5 m ρ c (Proc.devRef .tc main_v56) (ix2 k (0 : Fin 2)) = _
          rw [w5_v56]; exact Tile.join_col0 _ _ _ k)
        (by
          show W5 m ρ c (Proc.devRef .tc main_v61) (ix2 (0 : Fin 1) (0 : Fin 2)) = _
          rw [w5_v61]
          exact (Tile.join_col0 _ _ _ (0 : Fin 1)).trans (shapeCast_a_1a_apply (m ((c : Thread nD τ).loc main_arg11)) shapeCasts_S1_S1x1 (0 : Fin 1) (0 : Fin 1)))
        (fun k => by
          show W5 m ρ c (Proc.devRef .tc main_v58) (ix2 k (0 : Fin 2)) = _
          rw [w5_v58]; exact (Tile.join_col0 _ _ _ k).trans (Tile.zeros_apply _ _))
        (by
          show W5 m ρ c (Proc.devRef .tc main_v63) (ix2 (0 : Fin 1) (0 : Fin 2)) = _
          rw [w5_v63]; exact (Tile.join_col0 _ _ _ (0 : Fin 1)).trans (Tile.zeros_apply _ _))]
  have e49 : V5 m ρ c main_v49 = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := w5_v49 m ρ c
  have e50 : V5 m ρ c main_v50 = (m ((c : Thread nD τ).loc main_arg8)) := w5_v50 m ρ c
  have e52 : V5 m ρ c main_v52 = shapeCast S1x128 (m ((c : Thread nD τ).loc main_arg9)) shapeCasts_S128_S1x128 := w5_v52 m ρ c
  rw [e49, e50, e52]
  exact (Cert.RefStages.mean (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) _ (fun k => shapeCast_a_1a_apply (m ((c : Thread nD τ).loc main_arg9)) shapeCasts_S128_S1x128 (0 : Fin 1) k) e).symm

/-- The second result is the reference's variance head. -/
theorem out1 : W7 m ρ c (Proc.devRef .tc main_v66) = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) := by
  refine (Stages.s3_v66 (W6 m ρ c)).trans ?_
  funext i
  obtain ⟨e, u, rfl⟩ : ∃ (e : Fin 800000) (u : Fin 1), i = ix2 e u := ⟨i 0, i 1, eq_ix2 i⟩
  obtain rfl : u = 0 := Subsingleton.elim _ _
  rw [slice2_axis1_apply 1 (W6 m ρ c (Proc.devRef .tc main_v64)) slices_S800000x2_S800000x1_0_1 e (0 : Fin 1) (1 : Fin 2) rfl, w6_v64]
  show Tile.sel 1 (Tile.wide (V5 m ρ c main_v49) (V5 m ρ c main_v50) (V5 m ρ c main_v52) (V5 m ρ c main_v56) (V5 m ρ c main_v61)
        (V5 m ρ c main_v51) (V5 m ρ c main_v53) (V5 m ρ c main_v58) (V5 m ρ c main_v63) e (1 : Fin 2)) = _
  rw [show ∀ r : EReal, Tile.sel 1 r = Ideal.exp (Ideal.ofBits .f32 0x3F000000#32 * r) from fun r => if_neg (by decide)]
  rw [Tile.wide_col1' (V5 m ρ c main_v49) (V5 m ρ c main_v50) (V5 m ρ c main_v52) (V5 m ρ c main_v56) (V5 m ρ c main_v61)
        (V5 m ρ c main_v51) (V5 m ρ c main_v53) (V5 m ρ c main_v58) (V5 m ρ c main_v63)
        (fun k => (m ((c : Thread nD τ).loc main_arg14)) (ix2 k (0 : Fin 1))) ((m ((c : Thread nD τ).loc main_arg15)) (ix1 (0 : Fin 1))) e
        (fun k => by
          show W5 m ρ c (Proc.devRef .tc main_v56) (ix2 k (1 : Fin 2)) = _
          rw [w5_v56]; exact (Tile.join_col1 _ _ _ k).trans (Tile.zeros_apply _ _))
        (by
          show W5 m ρ c (Proc.devRef .tc main_v61) (ix2 (0 : Fin 1) (1 : Fin 2)) = _
          rw [w5_v61]; exact (Tile.join_col1 _ _ _ (0 : Fin 1)).trans (Tile.zeros_apply _ _))
        (fun k => by
          show W5 m ρ c (Proc.devRef .tc main_v58) (ix2 k (1 : Fin 2)) = _
          rw [w5_v58]; exact Tile.join_col1 _ _ _ k)
        (by
          show W5 m ρ c (Proc.devRef .tc main_v63) (ix2 (0 : Fin 1) (1 : Fin 2)) = _
          rw [w5_v63]
          exact (Tile.join_col1 _ _ _ (0 : Fin 1)).trans (shapeCast_a_1a_apply (m ((c : Thread nD τ).loc main_arg15)) shapeCasts_S1_S1x1 (0 : Fin 1) (0 : Fin 1)))]
  have e49 : V5 m ρ c main_v49 = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := w5_v49 m ρ c
  have e51 : V5 m ρ c main_v51 = (m ((c : Thread nD τ).loc main_arg12)) := w5_v51 m ρ c
  have e53 : V5 m ρ c main_v53 = shapeCast S1x128 (m ((c : Thread nD τ).loc main_arg13)) shapeCasts_S128_S1x128 := w5_v53 m ρ c
  rw [e49, e51, e53]
  exact (Cert.RefStages.var (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) _ (fun k => shapeCast_a_1a_apply (m ((c : Thread nD τ).loc main_arg13)) shapeCasts_S128_S1x128 (0 : Fin 1) k) e).symm

end Cert.KernelIdeal.Chain

end
-- ==== Proof.lean ====
/-
  A two-layer graph convolution followed by two edge heads, as three pipelined kernels among plain host operations,
  against the same network written with whole-array operations.
  Both programs gather rows by source node and add them up by destination node with the same host operations; the
  kernel stores its intermediate arrays in a narrower float format, which at the ideal values changes nothing. Each
  graph-convolution kernel computes relu(agg·W_rel + x·W_root + b) tile by tile where the reference computes
  relu((agg·W_rel + b) + x·W_root) at once: the same sums of products, the bias added in another place. The heads kernel
  widens each head's last layer to two columns, one of them zero, adds the two wide results and takes the exponential of
  half of column 1: a product with zero is zero on the extended reals, so column 0 is the reference's mean and column 1 its
  variance. No finiteness of the inputs is used.
  The three frames are the generated ones (the reference's is its generated run with the results dropped), the
  idealization rewrote nothing, and the value claim joins the kernel's run, with its results read stage by stage, to the
  reference's generated run.
-/
import proofs.«159588_j78761110274681_2_alg».proof.Defs
import proofs.«159588_j78761110274681_2_alg».proof.Proof.Gen.Kernel
import proofs.«159588_j78761110274681_2_alg».proof.Proof.Gen.Kernel.Skeleton
import proofs.«159588_j78761110274681_2_alg».proof.Proof.Gen.Kernel.Launch
import proofs.«159588_j78761110274681_2_alg».proof.Proof.Gen.Kernel.Points
import proofs.«159588_j78761110274681_2_alg».proof.Proof.Gen.Kernel.Frame
import proofs.«159588_j78761110274681_2_alg».proof.Proof.Gen.KernelIdeal
import proofs.«159588_j78761110274681_2_alg».proof.Proof.Gen.KernelIdeal.Skeleton
import proofs.«159588_j78761110274681_2_alg».proof.Proof.Gen.KernelIdeal.Launch
import proofs.«159588_j78761110274681_2_alg».proof.Proof.Gen.KernelIdeal.Points
import proofs.«159588_j78761110274681_2_alg».proof.Proof.Gen.KernelIdeal.Frame
import proofs.«159588_j78761110274681_2_alg».proof.Proof.Gen.ReferenceIdeal
import proofs.«159588_j78761110274681_2_alg».proof.Proof.Gen.Pre_finite_inputs
import proofs.«159588_j78761110274681_2_alg».proof.Proof.Gen.ReferenceIdeal.Read
import proofs.«159588_j78761110274681_2_alg».proof.Proof.KRun
import proofs.«159588_j78761110274681_2_alg».proof.Proof.Chain
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

set_option maxHeartbeats 4000000 in
/-- Both programs end with the reference's mean and variance heads of the launch arrays. -/
theorem algebraic : Cert.algebraic_KernelIdeal_ReferenceIdeal := by
  intro m ρ m' ρ' _ hagree
  refine ⟨fun c => Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Chain.out0 m ρ c), (h c).2.1.trans (Cert.KernelIdeal.Chain.out1 m ρ c), (h c).2.2⟩)
      (Cert.KernelIdeal.Named.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15⟩ := hagree c
      rw [Cert.ReferenceIdeal.Read.val_main_v61_eq, h0, h1, h2, h3, h4, h5, h6, h7, h8, h9, h10, h11]
    · obtain ⟨h0, h1, h2, h3, h4, h5, h6, h7, h8, h9, h10, h11, h12, h13, h14, h15⟩ := hagree c
      rw [Cert.ReferenceIdeal.Read.val_main_v73_eq, h0, h1, h2, h3, h4, h5, h6, h7, h12, h13, h14, h15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
